-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1x1x8192 : Shape := ⟨3, ![1, 1, 8192]⟩
abbrev S1x8192 : Shape := ⟨2, ![1, 8192]⟩
abbrev S1024x1 : Shape := ⟨2, ![1024, 1]⟩
abbrev S1024x3 : Shape := ⟨2, ![1024, 3]⟩
abbrev S3x2048 : Shape := ⟨2, ![3, 2048]⟩
abbrev S1024x2048 : Shape := ⟨2, ![1024, 2048]⟩
abbrev S1x2048 : Shape := ⟨2, ![1, 2048]⟩
abbrev S1024 : Shape := ⟨1, ![1024]⟩
abbrev S2048 : Shape := ⟨1, ![2048]⟩
abbrev S4x8192 : Shape := ⟨2, ![4, 8192]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x1, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S4x8192, .f32⟩
  | .hbm, ⟨11, _⟩ => ⟨S_, .f32⟩
  | .hbm, ⟨12, _⟩ => ⟨S4x8192, .f32⟩
  | .hbm, ⟨13, _⟩ => ⟨S4x8192, .f32⟩
  | .hbm, ⟨14, _⟩ => ⟨S4x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v44 : BitVec 32 := Scalar.muli arg2 c2048_i32
  v44
def k0_off1 (i : grid0.Coords) : Fin 2 → Nat :=
  let c0_17 : Index := 0#32
  let arg2 : BitVec 32 := BitVec.ofNat 32 (i 2).val
  let c2048_i32 : BitVec 32 := 2048#32
  let v44 : BitVec 32 := Scalar.muli arg2 c2048_i32
  let v45 : BitVec 32 := v44
  let v46 : Index := Scalar.indexCast v45
  ![0, v46.toNat]
def k0_cond3 (i : grid0.Coords) : BitVec 1 :=
  let arg1 : BitVec 32 := BitVec.ofNat 32 (i 1).val
  let c7_i32 : BitVec 32 := 7#32
  let v53 : BitVec 1 := Scalar.cmpi .eq arg1 c7_i32
  let arg2 : BitVec 32 := BitVec.ofNat 32 (i 2).val
  let c3_i32 : BitVec 32 := 3#32
  let v54 : BitVec 1 := Scalar.cmpi .eq arg2 c3_i32
  let v55 : BitVec 1 := Scalar.andi v53 v54
  let v56 : BitVec 32 := Scalar.extui v55
  let c0_i32_19 : BitVec 32 := 0#32
  let v57 : BitVec 1 := Scalar.cmpi .ne v56 c0_i32_19
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S1024 : S1024x2048.Reduces [1] S1024
  shapeCasts_S1024_S1024x1 : S1024.ShapeCasts S1024x1
  reduces_S1024x2048_S2048 : S1024x2048.Reduces [0] S2048
  shapeCasts_S2048_S1x2048 : S2048.ShapeCasts S1x2048
  h_S1x2048 : 0 < S1x2048.numel
  shapeCasts_S1x2048_S1x2048 : S1x2048.ShapeCasts S1x2048
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  bcast_S_S4x8192 : S_.BroadcastsInDim S4x8192 (![] : Fin 0 → Fin S4x8192.rank)
  reducesTo_S4x8192_S_d0_1 : S4x8192.ReducesTo [0, 1] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics both programs compute, stated once over the two argument arrays `P` (the predicted points) and
  `G` (the ground-truth points), each a [4, 8192, 3] array of extended reals: batch, point, coordinate.

  For batch `b`, a predicted point `n` and a ground-truth point `m`, `d2 P G b n m` is the squared Euclidean distance
  written as the sum of the three squared coordinate differences, started from zero:
      0 + (P[b,n,0] - G[b,m,0])² + (P[b,n,1] - G[b,m,1])² + (P[b,n,2] - G[b,m,2])².
  `rowMin` is its minimum over the ground-truth points (the nearest ground-truth point of `n`), `colMin` its minimum
  over the predicted points (the nearest predicted point of `m`); both are minima over all 8192 candidates, written as
  the infimum of a finite family in the complete lattice of the extended reals (the empty infimum being +∞).
  `root x` is the distance from a squared distance: clamp at zero, then the square root. `nearP` and `nearG` are the
  two [4, 8192] arrays of nearest-neighbour distances whose means the two programs add.
-/
import Idealize.ShloMosaic.PureOps.Ideal
import Idealize.ShloMosaic.Lib.ValueIdx

noncomputable section

namespace Cert.Chamfer

open Idealize.ShloMosaic Idealize.ShloMosaic.ValueIdx

/-- The shape of each argument array: 4 batches of 8192 points with 3 coordinates. -/
abbrev Pts : Shape := ⟨3, ![4, 8192, 3]⟩
/-- The shape of each array of nearest-neighbour distances: 4 batches of 8192 points. -/
abbrev Near : Shape := ⟨2, ![4, 8192]⟩

/-- The squared difference of coordinate `d` between predicted point `n` and ground-truth point `m` of batch `b`. -/
def sq (P G : Pts.Idx → EReal) (b : Fin 4) (n m : Fin 8192) (d : Fin 3) : EReal :=
  (P (ix3 b n d) - G (ix3 b m d)) * (P (ix3 b n d) - G (ix3 b m d))

/-- The squared distance between predicted point `n` and ground-truth point `m` of batch `b`: the three squared
    coordinate differences added to zero, first coordinate first. -/
def d2 (P G : Pts.Idx → EReal) (b : Fin 4) (n m : Fin 8192) : EReal :=
  0 + sq P G b n m 0 + sq P G b n m 1 + sq P G b n m 2

/-- The least squared distance from predicted point `n` to any ground-truth point of its batch. -/
def rowMin (P G : Pts.Idx → EReal) (b : Fin 4) (n : Fin 8192) : EReal :=
  Finset.univ.inf fun m : Fin 8192 => d2 P G b n m

/-- The least squared distance from ground-truth point `m` to any predicted point of its batch. -/
def colMin (P G : Pts.Idx → EReal) (b : Fin 4) (m : Fin 8192) : EReal :=
  Finset.univ.inf fun n : Fin 8192 => d2 P G b n m

/-- A distance from a squared distance: clamped at zero, then the square root. -/
def root (x : EReal) : EReal := Ideal.sqrt (max x 0)

/-- Each predicted point's distance to its nearest ground-truth point. -/
def nearP (P G : Pts.Idx → EReal) : Near.Idx → EReal := fun j => root (rowMin P G (j 0) (j 1))

/-- Each ground-truth point's distance to its nearest predicted point. -/
def nearG (P G : Pts.Idx → EReal) : Near.Idx → EReal := fun j => root (colMin P G (j 0) (j 1))

end Cert.Chamfer

end
-- ==== Proof.Glb.lean ====
/-
  A running minimum carried by its universal property.

  `IsGlb v p f` says that the extended real `v` is the greatest lower bound of the values `f k` over the natural
  numbers `k` satisfying `p`: an extended real lies below `v` exactly when it lies below every such value. Stated
  this way, the facts an accumulation of minima needs are short: the empty family has +∞; the minimum of two
  greatest lower bounds is the greatest lower bound over the union; a minimum folded from +∞ over a contiguous run of
  indices is the greatest lower bound over that run; and the greatest lower bound over all indices below `N` is the
  infimum of the finite family indexed by `Fin N`.
-/
import Idealize.ShloMosaic.PureOps.Ideal

namespace Cert.Chamfer

/-- `v` is the greatest lower bound of `f` over the indices satisfying `p`. -/
def IsGlb (v : EReal) (p : ℕ → Prop) (f : ℕ → EReal) : Prop := ∀ c : EReal, c ≤ v ↔ ∀ k, p k → c ≤ f k

namespace IsGlb

variable {a b : EReal} {p q r : ℕ → Prop} {f : ℕ → EReal}

/-- Over no index at all the greatest lower bound is +∞. -/
theorem top (h : ∀ k, ¬p k) : IsGlb ⊤ p f := fun _ => ⟨fun _ k hk => absurd hk (h k), fun _ => le_top⟩

/-- The minimum of two greatest lower bounds is the greatest lower bound over the union of their index sets. -/
theorem min (ha : IsGlb a p f) (hb : IsGlb b q f) (h : ∀ k, r k ↔ p k ∨ q k) : IsGlb (min a b) r f := fun c => by
  rw [le_min_iff, ha c, hb c]
  constructor
  · rintro ⟨h1, h2⟩ k hk
    rcases (h k).mp hk with hp | hq
    · exact h1 k hp
    · exact h2 k hq
  · intro H
    exact ⟨fun k hk => H k ((h k).mpr (Or.inl hk)), fun k hk => H k ((h k).mpr (Or.inr hk))⟩

/-- The index set may be restated. -/
theorem congr (ha : IsGlb a p f) (h : ∀ k, q k ↔ p k) : IsGlb a q f := fun c => by
  rw [ha c]
  exact forall_congr' fun k => by rw [h k]

/-- The value may be restated. -/
theorem of_eq (ha : IsGlb a p f) (h : b = a) : IsGlb b p f := h ▸ ha

/-- Two greatest lower bounds of one family are equal. -/
theorem unique (ha : IsGlb a p f) (hb : IsGlb b p f) : a = b :=
  eq_of_forall_le_iff fun c => (ha c).trans (hb c).symm

/-- A minimum folded from +∞ over `K` consecutive values `f s, …, f (s + K - 1)` is their greatest lower bound. -/
theorem fold {K : ℕ} (g : Fin K → EReal) (s : ℕ) (h : ∀ j : Fin K, g j = f (s + j.val)) :
    IsGlb (Finset.univ.fold Min.min ⊤ g) (fun k => s ≤ k ∧ k < s + K) f := fun c => by
  rw [Finset.le_fold_min]
  constructor
  · rintro ⟨_, H⟩ k ⟨h1, h2⟩
    have e := H ⟨k - s, by omega⟩ (Finset.mem_univ _)
    rw [h] at e
    have hk : s + (k - s) = k := by omega
    simpa only [hk] using e
  · intro H
    refine ⟨le_top, fun j _ => ?_⟩
    rw [h]
    exact H _ ⟨by omega, by have := j.isLt; omega⟩

/-- The greatest lower bound over all indices below `N` is the infimum of the family indexed by `Fin N`. -/
theorem eq_inf {N : ℕ} (hv : IsGlb a (fun k => k < N) f) (g : Fin N → EReal) (h : ∀ j : Fin N, g j = f j.val) :
    a = Finset.univ.inf g :=
  eq_of_forall_le_iff fun c => by
    rw [hv c, Finset.le_inf_iff]
    constructor
    · intro H j _
      rw [h]
      exact H _ j.isLt
    · intro H k hk
      have e := H ⟨k, hk⟩ (Finset.mem_univ _)
      rwa [h] at e

end IsGlb

end Cert.Chamfer
-- ==== Proof.Pieces.lean ====
/-
  What each of the kernel body's four control cases leaves in the buffers it carries from one grid point to the next,
  read off the stores the body's run found.

  The grid is (batch, block of 1024 predicted points, block of 2048 ground-truth points). At each point the body forms
  the 1024 × 2048 tile of squared distances, its row minima and its column minima. Two running minima are carried:
    • the row minima of the current block of predicted points (the first output's buffer), reset to +∞ whenever a new
      sweep over the ground-truth blocks starts, then lowered by each tile's row minima;
    • the column minima of the whole batch (a scratch row of 8192), reset to +∞ at a batch's first point, then lowered,
      in the slice of 2048 columns the point's ground-truth block occupies, by each tile's column minima.
  At a batch's last point the scratch row is copied to the second output's buffer.
  The lemmas are stated for any float instance, over the body's own named pure terms.
-/
import proofs.«121680_j40939628265652_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic Idealize.ShloMosaic.ValueIdx

namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The offsets of the slice of the running column minima that a grid point updates, in closed form: row 0, and
    column 2048 times the point's third coordinate (the index of its block of ground-truth points). -/
theorem off_eq (i : grid0.Coords) : k0_off1 i = ![0, 2048 * (i 2).val] := by
  have h : ∀ j : Fin 4, (Scalar.indexCast (Scalar.muli (BitVec.ofNat 32 j.val) 2048#32)).toNat = 2048 * j.val := by decide
  unfold k0_off1
  dsimp only
  rw [h (i 2)]

/-- Case B, the running row minima: the body leaves the elementwise minimum of what the buffer held and this
    tile's row minima. -/
theorem out_B_2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : ¬cond0_2 i)
    (x0 : Vec F S1x1024x3 .f32) (x1 : Vec F S1x3x2048 .f32) (xo2 : Vec F S1x1024x1 .f32) (xs0 : Vec F S1x8192 .f32) :
    out0_B_2 c i arg3 harg3 arg4 harg4 arg5 harg5 arg6 harg6 arg7 harg7 hc0 hc1 hc2 x0 x1 xo2 xs0 = k0_pay1 (k0_pay7 x0 x1) xo2 := by
  unfold out0_B_2
  rw [View.read_writes_eq_canon _ _ _ (cover0_B_2 c i arg3 harg3 arg4 harg4 arg5 harg5 arg6 harg6 arg7 harg7 hc0 hc1 hc2 x0 x1 xo2 xs0)]
  unfold kernelRun0_B
  dsimp only
  sl_unfold_run_names
  rw [View.canon_unit_zero hz3]
  simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case D, the running row minima: the body leaves the elementwise minimum of what the buffer held and this
    tile's row minima. -/
theorem out_D_2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec F S1x1024x3 .f32) (x1 : Vec F S1x3x2048 .f32) (xo2 : Vec F S1x1024x1 .f32) (xs0 : Vec F S1x8192 .f32) :
    out0_D_2 c i arg3 harg3 arg4 harg4 arg5 harg5 arg6 harg6 arg7 harg7 hc0 hc1 hc2 x0 x1 xo2 xs0 = k0_pay1 (k0_pay7 x0 x1) xo2 := by
  unfold out0_D_2
  rw [View.read_writes_eq_canon _ _ _ (cover0_D_2 c i arg3 harg3 arg4 harg4 arg5 harg5 arg6 harg6 arg7 harg7 hc0 hc1 hc2 x0 x1 xo2 xs0)]
  unfold kernelRun0_D
  dsimp only
  sl_unfold_run_names
  rw [View.canon_unit_zero hz3]
  simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case A, the running row minima: the body first fills the buffer with +∞, reads that back, and leaves its
    elementwise minimum with this tile's row minima. -/
theorem out_A_2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (hc1 : cond0_1 i) (hc2 : ¬cond0_2 i)
    (x0 : Vec F S1x1024x3 .f32) (x1 : Vec F S1x3x2048 .f32) :
    out0_A_2 c i arg3 harg3 arg4 harg4 arg5 harg5 arg6 harg6 arg7 harg7 hc0 hc1 hc2 x0 x1 = k0_pay1 (k0_pay7 x0 x1) k0_pay5 := by
  unfold out0_A_2
  rw [View.read_writes_eq_canon _ _ _ (cover0_A_2 c i arg3 harg3 arg4 harg4 arg5 harg5 arg6 harg6 arg7 harg7 hc0 hc1 hc2 x0 x1)]
  unfold kernelRun0_A
  dsimp only
  sl_unfold_run_names
  rw [View.canon_cons_unit_zero (S := S1x1024x1) hz3, View.readCov_unit_zero (S := S1x1024x1) _ hz3]
  simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case C, the running row minima: the body first fills the buffer with +∞, reads that back, and leaves its
    elementwise minimum with this tile's row minima. -/
theorem out_C_2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : cond0_1 i) (hc2 : ¬cond0_2 i)
    (x0 : Vec F S1x1024x3 .f32) (x1 : Vec F S1x3x2048 .f32) (xs0 : Vec F S1x8192 .f32) :
    out0_C_2 c i arg3 harg3 arg4 harg4 arg5 harg5 arg6 harg6 arg7 harg7 hc0 hc1 hc2 x0 x1 xs0 = k0_pay1 (k0_pay7 x0 x1) k0_pay5 := by
  unfold out0_C_2
  rw [View.read_writes_eq_canon _ _ _ (cover0_C_2 c i arg3 harg3 arg4 harg4 arg5 harg5 arg6 harg6 arg7 harg7 hc0 hc1 hc2 x0 x1 xs0)]
  unfold kernelRun0_C
  dsimp only
  sl_unfold_run_names
  rw [View.canon_cons_unit_zero (S := S1x1024x1) hz3, View.readCov_unit_zero (S := S1x1024x1) _ hz3]
  simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case B, the running column minima inside the slice this point updates: the elementwise minimum of what the
    slice held and this tile's column minima. -/
theorem sout_B_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : ¬cond0_2 i)
    (x0 : Vec F S1x1024x3 .f32) (x1 : Vec F S1x3x2048 .f32) (xo2 : Vec F S1x1024x1 .f32) (xs0 : Vec F S1x8192 .f32)
    (y : S1x8192.Idx) (x : S1x2048.Idx) (h0 : (y 0).val = 0 + (x 0).val) (h1 : (y 1).val = 2048 * (i 2).val + (x 1).val) :
    sout0_B_0 c i arg3 harg3 arg4 harg4 arg5 harg5 arg6 harg6 arg7 harg7 hc0 hc1 hc2 x0 x1 xo2 xs0 y = k0_pay2 (k0_pay8 x0 x1) (View.ld xs0 (Rect.unit (s := S1x8192) (k0_off1 i) S1x2048.size (k0_off1_inb i))) x := by
  unfold sout0_B_0 kernelRun0_B
  dsimp only
  sl_unfold_run_names
  refine (View.read_writes_cons_unit_of_mem arg7.view (harg7.unread xs0) (k0_off1_inb i) _ [] y x (off_eq i) ?_).trans ?_
  · intro a
    match a with
    | ⟨0, _⟩ => exact h0
    | ⟨1, _⟩ => exact h1
  · simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case B, the running column minima outside that slice: unchanged. -/
theorem sout_B_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : ¬cond0_2 i)
    (x0 : Vec F S1x1024x3 .f32) (x1 : Vec F S1x3x2048 .f32) (xo2 : Vec F S1x1024x1 .f32) (xs0 : Vec F S1x8192 .f32)
    (y : S1x8192.Idx) (h : (y 1).val < 2048 * (i 2).val ∨ 2048 * (i 2).val + 2048 ≤ (y 1).val) :
    sout0_B_0 c i arg3 harg3 arg4 harg4 arg5 harg5 arg6 harg6 arg7 harg7 hc0 hc1 hc2 x0 x1 xo2 xs0 y = xs0 y := by
  unfold sout0_B_0 kernelRun0_B
  dsimp only
  sl_unfold_run_names
  refine (View.read_writes_cons_unit_of_not_mem arg7.view (harg7.unread xs0) (k0_off1_inb i) _ [] y (off_eq i) 1 h).trans ?_
  rw [View.writes_nil, harg7.read_unread]

/-- Case C, the running column minima inside the slice this point updates: the elementwise minimum of what the
    slice held and this tile's column minima. -/
theorem sout_C_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : cond0_1 i) (hc2 : ¬cond0_2 i)
    (x0 : Vec F S1x1024x3 .f32) (x1 : Vec F S1x3x2048 .f32) (xs0 : Vec F S1x8192 .f32)
    (y : S1x8192.Idx) (x : S1x2048.Idx) (h0 : (y 0).val = 0 + (x 0).val) (h1 : (y 1).val = 2048 * (i 2).val + (x 1).val) :
    sout0_C_0 c i arg3 harg3 arg4 harg4 arg5 harg5 arg6 harg6 arg7 harg7 hc0 hc1 hc2 x0 x1 xs0 y = k0_pay2 (k0_pay8 x0 x1) (View.ld xs0 (Rect.unit (s := S1x8192) (k0_off1 i) S1x2048.size (k0_off1_inb i))) x := by
  unfold sout0_C_0 kernelRun0_C
  dsimp only
  sl_unfold_run_names
  refine (View.read_writes_cons_unit_of_mem arg7.view (harg7.unread xs0) (k0_off1_inb i) _ [] y x (off_eq i) ?_).trans ?_
  · intro a
    match a with
    | ⟨0, _⟩ => exact h0
    | ⟨1, _⟩ => exact h1
  · simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case C, the running column minima outside that slice: unchanged. -/
theorem sout_C_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : cond0_1 i) (hc2 : ¬cond0_2 i)
    (x0 : Vec F S1x1024x3 .f32) (x1 : Vec F S1x3x2048 .f32) (xs0 : Vec F S1x8192 .f32)
    (y : S1x8192.Idx) (h : (y 1).val < 2048 * (i 2).val ∨ 2048 * (i 2).val + 2048 ≤ (y 1).val) :
    sout0_C_0 c i arg3 harg3 arg4 harg4 arg5 harg5 arg6 harg6 arg7 harg7 hc0 hc1 hc2 x0 x1 xs0 y = xs0 y := by
  unfold sout0_C_0 kernelRun0_C
  dsimp only
  sl_unfold_run_names
  refine (View.read_writes_cons_unit_of_not_mem arg7.view (harg7.unread xs0) (k0_off1_inb i) _ [] y (off_eq i) 1 h).trans ?_
  rw [View.writes_nil, harg7.read_unread]

/-- Case D, the running column minima inside the slice this point updates: the elementwise minimum of what the
    slice held and this tile's column minima. -/
theorem sout_D_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec F S1x1024x3 .f32) (x1 : Vec F S1x3x2048 .f32) (xo2 : Vec F S1x1024x1 .f32) (xs0 : Vec F S1x8192 .f32)
    (y : S1x8192.Idx) (x : S1x2048.Idx) (h0 : (y 0).val = 0 + (x 0).val) (h1 : (y 1).val = 2048 * (i 2).val + (x 1).val) :
    sout0_D_0 c i arg3 harg3 arg4 harg4 arg5 harg5 arg6 harg6 arg7 harg7 hc0 hc1 hc2 x0 x1 xo2 xs0 y = k0_pay2 (k0_pay8 x0 x1) (View.ld xs0 (Rect.unit (s := S1x8192) (k0_off1 i) S1x2048.size (k0_off1_inb i))) x := by
  unfold sout0_D_0 kernelRun0_D
  dsimp only
  sl_unfold_run_names
  refine (View.read_writes_cons_unit_of_mem arg7.view (harg7.unread xs0) (k0_off1_inb i) _ [] y x (off_eq i) ?_).trans ?_
  · intro a
    match a with
    | ⟨0, _⟩ => exact h0
    | ⟨1, _⟩ => exact h1
  · simp only [View.readAt_eq_ld, harg3.read_unread, harg4.read_unread, harg5.read_unread, harg7.read_unread,
    View.ld_unit_zero (S := S1x1024x3) hz3, View.ld_unit_zero (S := S1x3x2048) hz3, View.ld_unit_zero (S := S1x1024x1) hz3]

/-- Case D, the running column minima outside that slice: unchanged. -/
theorem sout_D_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec F S1x1024x3 .f32) (x1 : Vec F S1x3x2048 .f32) (xo2 : Vec F S1x1024x1 .f32) (xs0 : Vec F S1x8192 .f32)
    (y : S1x8192.Idx) (h : (y 1).val < 2048 * (i 2).val ∨ 2048 * (i 2).val + 2048 ≤ (y 1).val) :
    sout0_D_0 c i arg3 harg3 arg4 harg4 arg5 harg5 arg6 harg6 arg7 harg7 hc0 hc1 hc2 x0 x1 xo2 xs0 y = xs0 y := by
  unfold sout0_D_0 kernelRun0_D
  dsimp only
  sl_unfold_run_names
  refine (View.read_writes_cons_unit_of_not_mem arg7.view (harg7.unread xs0) (k0_off1_inb i) _ [] y (off_eq i) 1 h).trans ?_
  rw [View.writes_nil, harg7.read_unread]

/-- What one store of the +∞ fill through the whole buffer leaves: the fill. -/
theorem read_fill (v : View sig .tc .vmem S1x8192 .f32) (f : v.ty.Contents (Elt F)) :
    v.read (Elt F) (v.writes (Elt F) f [⟨Rect.unit ![0, 0] S1x8192.size inb_S1x8192_S1x8192_0_0, k0_pay4⟩]) = k0_pay4 := by
  rw [View.read_writes_eq_canon _ _ _ (fun y => ⟨_, List.mem_singleton_self _, View.mem_set_unit_zero hz2 inb_S1x8192_S1x8192_0_0 y⟩),
    View.canon_unit_zero hz2]

/-- Case A (a batch's first point), the running column minima inside the slice this point updates: the body first
    fills the whole buffer with +∞; the slice then holds the minimum of that fill and this tile's column minima. -/
theorem sout_A_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (hc1 : cond0_1 i) (hc2 : ¬cond0_2 i)
    (x0 : Vec F S1x1024x3 .f32) (x1 : Vec F S1x3x2048 .f32)
    (y : S1x8192.Idx) (x : S1x2048.Idx) (h0 : (y 0).val = 0 + (x 0).val) (h1 : (y 1).val = 2048 * (i 2).val + (x 1).val) :
    sout0_A_0 c i arg3 harg3 arg4 harg4 arg5 harg5 arg6 harg6 arg7 harg7 hc0 hc1 hc2 x0 x1 y = k0_pay2 (k0_pay8 x0 x1) (View.ld k0_pay4 (Rect.unit (s := S1x8192) (k0_off1 i) S1x2048.size (k0_off1_inb i))) x := by
  unfold sout0_A_0 kernelRun0_A
  dsimp only
  sl_unfold_run_names
  refine (View.read_writes_cons_unit_of_mem VS0_0 VS0_0.junk (k0_off1_inb i) _ _ y x (off_eq i) ?_).trans ?_
  · intro a
    match a with
    | ⟨0, _⟩ => exact h0
    | ⟨1, _⟩ => exact h1
  · simp only [View.readAt_eq_ld, harg3.read_unread, harg4.read_unread,
      View.ld_unit_zero (S := S1x1024x3) hz3, View.ld_unit_zero (S := S1x3x2048) hz3]
    exact congrArg (fun z => k0_pay2 (k0_pay8 x0 x1) (View.ld z (Rect.unit (s := S1x8192) (k0_off1 i) S1x2048.size (k0_off1_inb i))) x) (read_fill arg7.view arg7.view.junk)

/-- Case A, outside that slice: the +∞ fill. -/
theorem sout_A_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (hc1 : cond0_1 i) (hc2 : ¬cond0_2 i)
    (x0 : Vec F S1x1024x3 .f32) (x1 : Vec F S1x3x2048 .f32)
    (y : S1x8192.Idx) (h : (y 1).val < 2048 * (i 2).val ∨ 2048 * (i 2).val + 2048 ≤ (y 1).val) :
    sout0_A_0 c i arg3 harg3 arg4 harg4 arg5 harg5 arg6 harg6 arg7 harg7 hc0 hc1 hc2 x0 x1 y = k0_pay4 y := by
  unfold sout0_A_0 kernelRun0_A
  dsimp only
  sl_unfold_run_names
  refine (View.read_writes_cons_unit_of_not_mem VS0_0 VS0_0.junk (k0_off1_inb i) _ _ y (off_eq i) 1 h).trans ?_
  rw [read_fill]

/-- Case D (a batch's last point), the column-minima output: the body copies out the running column minima as this
    point has just left them. -/
theorem out_D_3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec F S1x1024x3 .f32) (x1 : Vec F S1x3x2048 .f32) (xo2 : Vec F S1x1024x1 .f32) (xs0 : Vec F S1x8192 .f32) :
    out0_D_3 c i arg3 harg3 arg4 harg4 arg5 harg5 arg6 harg6 arg7 harg7 hc0 hc1 hc2 x0 x1 xo2 xs0 = k0_pay3 (sout0_D_0 c i arg3 harg3 arg4 harg4 arg5 harg5 arg6 harg6 arg7 harg7 hc0 hc1 hc2 x0 x1 xo2 xs0) := by
  unfold out0_D_3 sout0_D_0
  rw [View.read_writes_eq_canon _ _ _ (cover0_D_3 c i arg3 harg3 arg4 harg4 arg5 harg5 arg6 harg6 arg7 harg7 hc0 hc1 hc2 x0 x1 xo2 xs0)]
  unfold kernelRun0_D
  dsimp only
  sl_unfold_run_names
  rw [View.canon_unit_zero hz3]
  simp only [View.readAt_eq_ld, View.ld_unit_zero (S := S1x8192) hz2]

end Cert.KernelIdeal.Pieces
end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Tile.lean ====
/-
  The kernel body's arithmetic, read one entry at a time at the extended reals.

  For a block `x0` of 1024 predicted points ([1, 1024, 3]) and a block `x1` of 2048 ground-truth points laid out
  coordinate-major ([1, 3, 2048]):
    • the tile of squared distances at (r, c) is 0 + Σ_d (x0[0, r, d] - x1[0, d, c])², the three squares added in order;
    • the tile's row minimum at r is the greatest lower bound of the tile's row r, its column minimum at c that of
      column c (a minimum folded from +∞ over the lane, resp. the sublane, axis);
    • the accumulations take the entrywise minimum with what was held; the fills are +∞; the copy-out re-lays a
      [1, 8192] row as [1, 1, 8192].
-/
import proofs.«121680_j40939628265652_2_alg».proof.Proof.Gen.KernelIdeal.Skeleton
import proofs.«121680_j40939628265652_2_alg».proof.Proof.LibKeepdims
import proofs.«121680_j40939628265652_2_alg».proof.Proof.Glb
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Cert.Lib.Keepdims Cert.Chamfer

namespace Cert.KernelIdeal.Tile

open Cert.KernelIdeal Cert.KernelIdeal.Gen

/-- The pattern of +∞ denotes +∞. -/
theorem inf_word : (FloatOps.ofBits (F := Ideal) .f32 0x7F800000#32) = (⊤ : EReal) := by
  show Ideal.ofBits .f32 0x7F800000#32 = ⊤
  simp [Ideal.ofBits, Ideal.ieee]

/-- A minimum over one axis, read at the extended reals: the minimum folded from the initial value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Coordinate `d` of predicted point `r`, spread along the tile's row `r`. -/
theorem pick_pred (x0 : Vec Ideal S1x1024x3 .f32) (o : ℕ) (d : Fin 3) (hd : d.val = o)
    (h1 : S1x1024x3.ShapeCasts S1024x3) (h2 : S1024x3.Slices ![0, o] S1024x1) (h3 : S1024x1.Broadcasts S1024x2048)
    (r : Fin 1024) (c : Fin 2048) :
    broadcastTo S1024x2048 (extractStridedSlice S1024x1 ![0, o] (shapeCast S1024x3 x0 h1) h2) h3 (ix2 r c)
      = x0 (ix3 (0 : Fin 1) r d) := by
  rw [broadcastTo_a1_ab_apply, slice2_axis1_apply o _ h2 r (0 : Fin 1) d (by rw [hd]; rfl), shapeCast_1ab_ab_apply]

/-- Coordinate `d` of ground-truth point `c`, spread along the tile's column `c`. -/
theorem pick_gt (x1 : Vec Ideal S1x3x2048 .f32) (o : ℕ) (d : Fin 3) (hd : d.val = o)
    (h1 : S1x3x2048.ShapeCasts S3x2048) (h2 : S3x2048.Slices ![o, 0] S1x2048) (h3 : S1x2048.Broadcasts S1024x2048)
    (r : Fin 1024) (c : Fin 2048) :
    broadcastTo S1024x2048 (extractStridedSlice S1x2048 ![o, 0] (shapeCast S3x2048 x1 h1) h2) h3 (ix2 r c)
      = x1 (ix3 (0 : Fin 1) d c) := by
  rw [broadcastTo_1b_ab_apply, slice2_axis0_apply o _ h2 (0 : Fin 1) c d (by rw [hd]; rfl), shapeCast_1ab_ab_apply]

/-- One squared coordinate difference of the tile. -/
def sqd (x0 : Vec Ideal S1x1024x3 .f32) (x1 : Vec Ideal S1x3x2048 .f32) (r : Fin 1024) (c : Fin 2048) (d : Fin 3) : EReal :=
  (x0 (ix3 (0 : Fin 1) r d) - x1 (ix3 (0 : Fin 1) d c)) * (x0 (ix3 (0 : Fin 1) r d) - x1 (ix3 (0 : Fin 1) d c))

/-- The tile of squared distances at (r, c): the three squared coordinate differences added to zero in order. -/
theorem tile_apply (x0 : Vec Ideal S1x1024x3 .f32) (x1 : Vec Ideal S1x3x2048 .f32) (r : Fin 1024) (c : Fin 2048) :
    k0_pay6 (F := Ideal) x0 x1 (ix2 r c) = 0 + sqd x0 x1 r c 0 + sqd x0 x1 r c 1 + sqd x0 x1 r c 2 := by
  unfold k0_pay6 sqd
  simp only [addf_apply, mulf_apply, subf_apply, broadcast_apply,
    pick_pred x0 0 (0 : Fin 3) rfl, pick_pred x0 1 (1 : Fin 3) rfl, pick_pred x0 2 (2 : Fin 3) rfl,
    pick_gt x1 0 (0 : Fin 3) rfl, pick_gt x1 1 (1 : Fin 3) rfl, pick_gt x1 2 (2 : Fin 3) rfl]
  rw [show (Scalar.ofBits (F := Ideal) .f32 0x00000000#32 : EReal) = 0 from Ideal.ofBits_zero_f32]

/-- The tile's row minimum at `r` is the greatest lower bound of row `r`, wherever the row's entries sit in a family
    `f` indexed from `s`. -/
theorem rowmin_glb (x0 : Vec Ideal S1x1024x3 .f32) (x1 : Vec Ideal S1x3x2048 .f32) (r : Fin 1024) (u : Fin 1)
    (f : ℕ → EReal) (s : ℕ) (h : ∀ c : Fin 2048, k0_pay6 (F := Ideal) x0 x1 (ix2 r c) = f (s + c.val)) :
    IsGlb (k0_pay7 (F := Ideal) x0 x1 (ix2 r u)) (fun k => s ≤ k ∧ k < s + 2048) f := by
  unfold k0_pay7
  rw [shapeCast_a_a1_apply]
  have e := multiReduction_minimumf_single (k0_pay6 (F := Ideal) x0 x1) 0x7F800000#32 reduces_S1024x2048_S1024 (.inl rfl) rfl (ix1 r)
  refine IsGlb.of_eq ?_ (e.trans (congrArg (fun z => (Finset.univ : Finset (Fin 2048)).fold min z
    (k0_pay6 (F := Ideal) x0 x1 ∘ reduces_S1024x2048_S1024.lift (ix1 r))) inf_word))
  exact IsGlb.fold _ s fun (c : Fin 2048) =>
    (congrArg (k0_pay6 (F := Ideal) x0 x1) (funext fun a => Fin.ext (by match a with | ⟨0, _⟩ => rfl | ⟨1, _⟩ => rfl))).trans (h c)

/-- The tile's column minimum at `c` is the greatest lower bound of column `c`. -/
theorem colmin_glb (x0 : Vec Ideal S1x1024x3 .f32) (x1 : Vec Ideal S1x3x2048 .f32) (c : Fin 2048) (u : Fin 1)
    (f : ℕ → EReal) (s : ℕ) (h : ∀ r : Fin 1024, k0_pay6 (F := Ideal) x0 x1 (ix2 r c) = f (s + r.val)) :
    IsGlb (k0_pay8 (F := Ideal) x0 x1 (ix2 u c)) (fun k => s ≤ k ∧ k < s + 1024) f := by
  unfold k0_pay8
  rw [shapeCast_a_1a_apply]
  have e := multiReduction_minimumf_single (k0_pay6 (F := Ideal) x0 x1) 0x7F800000#32 reduces_S1024x2048_S2048 (.inl rfl) rfl (ix1 c)
  refine IsGlb.of_eq ?_ (e.trans (congrArg (fun z => (Finset.univ : Finset (Fin 1024)).fold min z
    (k0_pay6 (F := Ideal) x0 x1 ∘ reduces_S1024x2048_S2048.lift (ix1 c))) inf_word))
  exact IsGlb.fold _ s fun (r : Fin 1024) =>
    (congrArg (k0_pay6 (F := Ideal) x0 x1) (funext fun a => Fin.ext (by match a with | ⟨0, _⟩ => rfl | ⟨1, _⟩ => rfl))).trans (h r)

/-- The row accumulation: entrywise minimum of what was held and the tile's row minima. -/
theorem acc_row_apply (v35 : FVec Ideal S1024x1 .f32) (v38 : Vec Ideal S1x1024x1 .f32) (u : Fin 1) (r : Fin 1024) (w : Fin 1) :
    k0_pay1 (F := Ideal) v35 v38 (ix3 u r w) = min (v38 (ix3 (0 : Fin 1) r w)) (v35 (ix2 r w)) := by
  unfold k0_pay1
  rw [shapeCast_ab_1ab_apply, minimumf_apply, shapeCast_1ab_ab_apply]

/-- The column accumulation: entrywise minimum of what the slice held and the tile's column minima. -/
theorem acc_col_apply (v37 : FVec Ideal S1x2048 .f32) (v47 : Vec Ideal S1x2048 .f32) (x : S1x2048.Idx) :
    k0_pay2 (F := Ideal) v37 v47 x = min (v47 x) (v37 x) := by
  unfold k0_pay2
  rw [shapeCast_self, minimumf_apply]

/-- The copy-out: the [1, 8192] row re-laid as [1, 1, 8192]. -/
theorem copy_apply (v58 : Vec Ideal S1x8192 .f32) (u w : Fin 1) (k : Fin 8192) :
    k0_pay3 (F := Ideal) v58 (ix3 u w k) = v58 (ix2 w k) := by
  unfold k0_pay3
  rw [shapeCast_ab_1ab_apply]

/-- The column fill is +∞ everywhere. -/
theorem fill_col_apply (y : S1x8192.Idx) : k0_pay4 (F := Ideal) y = ⊤ := by
  unfold k0_pay4
  rw [shapeCast_self, broadcast_apply]
  exact inf_word

/-- The row fill is +∞ everywhere. -/
theorem fill_row_apply (u : Fin 1) (r : Fin 1024) (w : Fin 1) : k0_pay5 (F := Ideal) (ix3 u r w) = ⊤ := by
  unfold k0_pay5
  rw [shapeCast_ab_1ab_apply, broadcast_apply]
  exact inf_word

end Cert.KernelIdeal.Tile

end
-- ==== Proof.Blocks.lean ====
/-
  What the two input windows hold at a grid point, in terms of the argument arrays.

  The linear point t = 32·b + 4·i + j stands for batch b = t / 32, block i = (t / 4) % 8 of 1024 predicted points and
  block j = t % 4 of 2048 ground-truth points. The first window's block is rows 1024·i … 1024·i + 1023 of batch b of the
  predicted points. The second window reads the ground-truth points transposed to coordinate-major order (the one host
  operation before the kernel), so its block at (0, d, c) is coordinate d of ground-truth point 2048·j + c of batch b.
-/
import proofs.«121680_j40939628265652_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic
import Idealize.ShloMosaic.Lib.StableHlo.Run
import Idealize.ShloMosaic.Lib.ValueLayout
set_option maxRecDepth 16384

noncomputable section

open Idealize.ShloMosaic Idealize.ShloMosaic.TcCoe Idealize.SL.Sem Idealize.ShloMosaic.Tactic Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The first window's block index at point t: (batch, block of predicted points, 0). -/
theorem idx0 : ∀ t : Fin cfg0.N, win0_0.index t 0 = t.val / 32 ∧ win0_0.index t 1 = t.val / 4 % 8 ∧ win0_0.index t 2 = 0 :=
  (by decide +kernel : ∀ t : Fin grid0.N, win0_0.index t 0 = t.val / 32 ∧ win0_0.index t 1 = t.val / 4 % 8 ∧ win0_0.index t 2 = 0)

/-- The second window's block index at point t: (batch, 0, block of ground-truth points). -/
theorem idx1 : ∀ t : Fin cfg0.N, win0_1.index t 0 = t.val / 32 ∧ win0_1.index t 1 = 0 ∧ win0_1.index t 2 = t.val % 4 :=
  (by decide +kernel : ∀ t : Fin grid0.N, win0_1.index t 0 = t.val / 32 ∧ win0_1.index t 1 = 0 ∧ win0_1.index t 2 = t.val % 4)

/-- The third grid coordinate of point t is t % 4. -/
theorem coord2 : ∀ t : Fin cfg0.N, ((grid0.coords t) 2).val = t.val % 4 :=
  (by decide +kernel : ∀ t : Fin grid0.N, ((grid0.coords t) 2).val = t.val % 4)

/-- The array the second window reads is the ground-truth points transposed to coordinate-major order. -/
theorem V_gt (c : Dev nD) : (V m c main_v0 : S4x3x8192.Idx → Elt F .f32)
    = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- The first window's block at point t, entry (0, r, d): coordinate d of predicted point 1024·i + r of batch b. -/
theorem pred_block (c : Dev nD) (t : Fin cfg0.N) (r : Fin 1024) (d : Fin 3) (hb : t.val / 32 < 4)
    (hn : 1024 * (t.val / 4 % 8) + r.val < 8192) :
    (iblk m c 0 t : Vec F S1x1024x3 .f32) (ix3 (0 : Fin 1) r d)
      = m ((c : Thread nD τ).loc main_arg0) (ix3 (⟨t.val / 32, hb⟩ : Fin 4) (⟨1024 * (t.val / 4 % 8) + r.val, hn⟩ : Fin 8192) d) := by
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 32; rw [(idx0 t).1]; omega
  | ⟨1, _⟩ => show win0_0.index t 1 * 1024 + 1 * r.val = 1024 * (t.val / 4 % 8) + r.val; rw [(idx0 t).2.1]; omega
  | ⟨2, _⟩ => show win0_0.index t 2 * 3 + 1 * d.val = d.val; rw [(idx0 t).2.2]; omega

/-- The second window's block at point t, entry (0, d, k): coordinate d of ground-truth point 2048·j + k of batch b. -/
theorem gt_block (c : Dev nD) (t : Fin cfg0.N) (d : Fin 3) (k : Fin 2048) (hb : t.val / 32 < 4)
    (hm : 2048 * (t.val % 4) + k.val < 8192) :
    (iblk m c 1 t : Vec F S1x3x2048 .f32) (ix3 (0 : Fin 1) d k)
      = m ((c : Thread nD τ).loc main_arg1) (ix3 (⟨t.val / 32, hb⟩ : Fin 4) (⟨2048 * (t.val % 4) + k.val, hm⟩ : Fin 8192) d) := by
  unfold iblk
  rw [View.read_apply]
  show V m c main_v0 _ = m (c.tc.loc main_arg1) _
  rw [V_gt]
  have e : (((cfg0.win 1).blk t).view.emb (ix3 (0 : Fin 1) d k) : S4x3x8192.Idx)
      = ix3 (⟨t.val / 32, hb⟩ : Fin 4) d (⟨2048 * (t.val % 4) + k.val, hm⟩ : Fin 8192) := by
    funext a
    apply Fin.ext
    match a with
    | ⟨0, _⟩ => show win0_1.index t 0 * 1 + 1 * 0 = t.val / 32; rw [(idx1 t).1]; omega
    | ⟨1, _⟩ => show win0_1.index t 1 * 3 + 1 * d.val = d.val; rw [(idx1 t).2.1]; omega
    | ⟨2, _⟩ => show win0_1.index t 2 * 2048 + 1 * k.val = 2048 * (t.val % 4) + k.val; rw [(idx1 t).2.2]; omega
  refine (congrArg (transpose S4x3x8192 [0, 2, 1] (m (c.tc.loc main_arg1)) transposes_S4x8192x3_S4x3x8192_0_2_1) e).trans ?_
  exact transpose_ix3_021_apply _ _ _ _ _

end Cert.KernelIdeal.Blocks
end
-- ==== Proof.Invariant.lean ====
/-
  What the carried buffers hold after every grid point, by induction on the point.

  Points are visited in the order t = 0, 1, …, 127 with t = 32·b + 4·i + j (batch b, block i of 1024 predicted points,
  block j of 2048 ground-truth points). Write D b n k for the squared distance between predicted point n and
  ground-truth point k of batch b (and +∞ outside the arrays). After point t:
    • the first output's buffer holds, at row r, the least D b (1024·i + r) k over the ground-truth points k already swept
      in this row block, k < 2048·(j + 1);
    • the scratch row holds, at column y, the least D b n y over the predicted points n already met for that column:
      n < 1024·i, and also 1024·i ≤ n < 1024·(i + 1) once the column's block has been visited in the current row block
      (y < 2048·(j + 1));
    • at a batch's last point the second output's buffer is a copy of the scratch row.
  Each statement is a greatest lower bound in the sense of the order module; a step is the minimum of two of them over
  adjacent index ranges. At the write-back points the ranges are complete, which gives the row and column minima.
-/
import proofs.«121680_j40939628265652_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic
import proofs.«121680_j40939628265652_2_alg».proof.Proof.Spec
import proofs.«121680_j40939628265652_2_alg».proof.Proof.Glb
import proofs.«121680_j40939628265652_2_alg».proof.Proof.Pieces
import proofs.«121680_j40939628265652_2_alg».proof.Proof.Tile
import proofs.«121680_j40939628265652_2_alg».proof.Proof.Blocks
set_option maxRecDepth 16384

noncomputable section

open Idealize.ShloMosaic Idealize.ShloMosaic.TcCoe Idealize.SL.Sem Idealize.ShloMosaic.Tactic Idealize.ShloMosaic.ValueIdx

namespace Cert.KernelIdeal.Inv

open Cert.KernelIdeal Cert.KernelIdeal.Gen Cert.Chamfer

variable (m : (ℓ : Loc nD τ sig) → Buf (Elt Ideal) ℓ) (c : Dev nD)

/-- The predicted points as the kernel is launched with them. -/
abbrev Pa : Pts.Idx → EReal := fun i => m ((c : Thread nD τ).loc main_arg0) i
/-- The ground-truth points as the kernel is launched with them. -/
abbrev Ga : Pts.Idx → EReal := fun i => m ((c : Thread nD τ).loc main_arg1) i

/-- The squared distance at natural-number coordinates, +∞ outside the arrays. -/
def D (P G : Pts.Idx → EReal) (b n k : ℕ) : EReal :=
  if h : b < 4 ∧ n < 8192 ∧ k < 8192 then d2 P G ⟨b, h.1⟩ ⟨n, h.2.1⟩ ⟨k, h.2.2⟩ else ⊤

theorem lt128 (t : Fin cfg0.N) : t.val < 128 := lt_of_lt_of_eq t.isLt N_0

/-- The tile a point forms is the squared distances of its two blocks. -/
theorem tileD (c : Dev nD) (t : Fin cfg0.N) (r : Fin 1024) (k : Fin 2048) :
    k0_pay6 (F := Ideal) (iblk m c 0 t) (iblk m c 1 t) (ix2 r k)
      = D (Pa m c) (Ga m c) (t.val / 32) (1024 * (t.val / 4 % 8) + r.val) (2048 * (t.val % 4) + k.val) := by
  have ht := lt128 t
  have hb : t.val / 32 < 4 := by omega
  have hn : 1024 * (t.val / 4 % 8) + r.val < 8192 := by have := r.isLt; omega
  have hm : 2048 * (t.val % 4) + k.val < 8192 := by have := k.isLt; omega
  refine (Tile.tile_apply (iblk m c 0 t) (iblk m c 1 t) r k).trans ?_
  unfold D
  rw [dif_pos ⟨hb, hn, hm⟩]
  unfold d2 Cert.Chamfer.sq Tile.sqd
  rw [Blocks.pred_block m c t r 0 hb hn, Blocks.pred_block m c t r 1 hb hn, Blocks.pred_block m c t r 2 hb hn,
    Blocks.gt_block m c t 0 k hb hm, Blocks.gt_block m c t 1 k hb hm, Blocks.gt_block m c t 2 k hb hm]

/-- What the buffers hold after point `n`. -/
def Holds (n : ℕ) (h : n < cfg0.N) : Prop :=
  (∀ r : Fin 1024, IsGlb ((outsAt0 m c n h).1 (ix3 (0 : Fin 1) r (0 : Fin 1))) (fun k => k < 2048 * (n % 4 + 1))
      (fun k => D (Pa m c) (Ga m c) (n / 32) (1024 * (n / 4 % 8) + r.val) k))
  ∧ (∀ y : Fin 8192, IsGlb ((outsAt0 m c n h).2.2 (ix2 (0 : Fin 1) y))
      (fun k => k < 1024 * (n / 4 % 8) ∨ (y.val < 2048 * (n % 4 + 1) ∧ k < 1024 * (n / 4 % 8) + 1024))
      (fun k => D (Pa m c) (Ga m c) (n / 32) k y.val))
  ∧ (n % 32 = 31 → ∀ y : Fin 8192, (outsAt0 m c n h).2.1 (ix3 (0 : Fin 1) (0 : Fin 1) y) = (outsAt0 m c n h).2.2 (ix2 (0 : Fin 1) y))

/-- This tile's row minimum at row r, as a greatest lower bound over the point's block of ground-truth points. -/
theorem row_tile (c : Dev nD) (t : Fin cfg0.N) (r : Fin 1024) :
    IsGlb (k0_pay7 (F := Ideal) (iblk m c 0 t) (iblk m c 1 t) (ix2 r (0 : Fin 1)))
      (fun k => 2048 * (t.val % 4) ≤ k ∧ k < 2048 * (t.val % 4) + 2048)
      (fun k => D (Pa m c) (Ga m c) (t.val / 32) (1024 * (t.val / 4 % 8) + r.val) k) :=
  Tile.rowmin_glb (iblk m c 0 t) (iblk m c 1 t) r 0 _ (2048 * (t.val % 4)) fun k => tileD m c t r k

/-- This tile's column minimum at the column of ground-truth point y = 2048·j + k, as a greatest lower bound over the
    point's block of predicted points. -/
theorem col_tile (c : Dev nD) (t : Fin cfg0.N) (y : Fin 8192) (k : Fin 2048) (hy : y.val = 2048 * (t.val % 4) + k.val) :
    IsGlb (k0_pay8 (F := Ideal) (iblk m c 0 t) (iblk m c 1 t) (ix2 (0 : Fin 1) k))
      (fun n => 1024 * (t.val / 4 % 8) ≤ n ∧ n < 1024 * (t.val / 4 % 8) + 1024)
      (fun n => D (Pa m c) (Ga m c) (t.val / 32) n y.val) :=
  Tile.colmin_glb (iblk m c 0 t) (iblk m c 1 t) k 0 _ (1024 * (t.val / 4 % 8)) fun r => by
    rw [hy]; exact tileD m c t r k

/-- The slice of the scratch row a point updates, read at a column inside it. -/
theorem ld_slice (i : grid0.Coords) (xs : Vec Ideal S1x8192 .f32) (y : Fin 8192) (k : Fin 2048)
    (hy : y.val = 2048 * (i 2).val + k.val) :
    View.ld xs (Rect.unit (s := S1x8192) (k0_off1 i) S1x2048.size (k0_off1_inb i)) (ix2 (0 : Fin 1) k) = xs (ix2 (0 : Fin 1) y) := by
  refine congrArg xs (funext fun a => Fin.ext ?_)
  match a with
  | ⟨0, _⟩ => show (k0_off1 i) 0 + 1 * 0 = 0; rw [Pieces.off_eq]; rfl
  | ⟨1, _⟩ => show (k0_off1 i) 1 + 1 * k.val = y.val; rw [Pieces.off_eq, hy]; show 2048 * (i 2).val + 1 * k.val = _; omega

/-- Case A: the scratch row at a column inside the slice this point updates. -/
theorem scrA_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (hc1 : cond0_1 i) (hc2 : ¬cond0_2 i)
    (x0 : Vec Ideal S1x1024x3 .f32) (x1 : Vec Ideal S1x3x2048 .f32) (y : Fin 8192) (k : Fin 2048) (hy : y.val = 2048 * (i 2).val + k.val) :
    sout0_A_0 c i arg3 harg3 arg4 harg4 arg5 harg5 arg6 harg6 arg7 harg7 hc0 hc1 hc2 x0 x1 (ix2 (0 : Fin 1) y) = min ((k0_pay4 (F := Ideal)) (ix2 (0 : Fin 1) y)) (k0_pay8 (F := Ideal) x0 x1 (ix2 (0 : Fin 1) k)) :=
  (Pieces.sout_A_in c i arg3 harg3 arg4 harg4 arg5 harg5 arg6 harg6 arg7 harg7 hc0 hc1 hc2 x0 x1 (ix2 (0 : Fin 1) y) (ix2 (0 : Fin 1) k) rfl hy).trans
    ((Tile.acc_col_apply _ _ _).trans (congrArg (fun z => min z _) (ld_slice i (k0_pay4 (F := Ideal)) y k hy)))

/-- Case A: the scratch row at a column outside that slice. -/
theorem scrA_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : cond0_0 i) (hc1 : cond0_1 i) (hc2 : ¬cond0_2 i)
    (x0 : Vec Ideal S1x1024x3 .f32) (x1 : Vec Ideal S1x3x2048 .f32) (y : Fin 8192) (hy : y.val < 2048 * (i 2).val ∨ 2048 * (i 2).val + 2048 ≤ y.val) :
    sout0_A_0 c i arg3 harg3 arg4 harg4 arg5 harg5 arg6 harg6 arg7 harg7 hc0 hc1 hc2 x0 x1 (ix2 (0 : Fin 1) y) = (k0_pay4 (F := Ideal)) (ix2 (0 : Fin 1) y) :=
  Pieces.sout_A_out c i arg3 harg3 arg4 harg4 arg5 harg5 arg6 harg6 arg7 harg7 hc0 hc1 hc2 x0 x1 (ix2 (0 : Fin 1) y) hy

/-- Case B: the scratch row at a column inside the slice this point updates. -/
theorem scrB_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : ¬cond0_2 i)
    (x0 : Vec Ideal S1x1024x3 .f32) (x1 : Vec Ideal S1x3x2048 .f32) (xo2 : Vec Ideal S1x1024x1 .f32) (xs0 : Vec Ideal S1x8192 .f32) (y : Fin 8192) (k : Fin 2048) (hy : y.val = 2048 * (i 2).val + k.val) :
    sout0_B_0 c i arg3 harg3 arg4 harg4 arg5 harg5 arg6 harg6 arg7 harg7 hc0 hc1 hc2 x0 x1 xo2 xs0 (ix2 (0 : Fin 1) y) = min (xs0 (ix2 (0 : Fin 1) y)) (k0_pay8 (F := Ideal) x0 x1 (ix2 (0 : Fin 1) k)) :=
  (Pieces.sout_B_in c i arg3 harg3 arg4 harg4 arg5 harg5 arg6 harg6 arg7 harg7 hc0 hc1 hc2 x0 x1 xo2 xs0 (ix2 (0 : Fin 1) y) (ix2 (0 : Fin 1) k) rfl hy).trans
    ((Tile.acc_col_apply _ _ _).trans (congrArg (fun z => min z _) (ld_slice i xs0 y k hy)))

/-- Case B: the scratch row at a column outside that slice. -/
theorem scrB_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : ¬cond0_2 i)
    (x0 : Vec Ideal S1x1024x3 .f32) (x1 : Vec Ideal S1x3x2048 .f32) (xo2 : Vec Ideal S1x1024x1 .f32) (xs0 : Vec Ideal S1x8192 .f32) (y : Fin 8192) (hy : y.val < 2048 * (i 2).val ∨ 2048 * (i 2).val + 2048 ≤ y.val) :
    sout0_B_0 c i arg3 harg3 arg4 harg4 arg5 harg5 arg6 harg6 arg7 harg7 hc0 hc1 hc2 x0 x1 xo2 xs0 (ix2 (0 : Fin 1) y) = xs0 (ix2 (0 : Fin 1) y) :=
  Pieces.sout_B_out c i arg3 harg3 arg4 harg4 arg5 harg5 arg6 harg6 arg7 harg7 hc0 hc1 hc2 x0 x1 xo2 xs0 (ix2 (0 : Fin 1) y) hy

/-- Case C: the scratch row at a column inside the slice this point updates. -/
theorem scrC_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : cond0_1 i) (hc2 : ¬cond0_2 i)
    (x0 : Vec Ideal S1x1024x3 .f32) (x1 : Vec Ideal S1x3x2048 .f32) (xs0 : Vec Ideal S1x8192 .f32) (y : Fin 8192) (k : Fin 2048) (hy : y.val = 2048 * (i 2).val + k.val) :
    sout0_C_0 c i arg3 harg3 arg4 harg4 arg5 harg5 arg6 harg6 arg7 harg7 hc0 hc1 hc2 x0 x1 xs0 (ix2 (0 : Fin 1) y) = min (xs0 (ix2 (0 : Fin 1) y)) (k0_pay8 (F := Ideal) x0 x1 (ix2 (0 : Fin 1) k)) :=
  (Pieces.sout_C_in c i arg3 harg3 arg4 harg4 arg5 harg5 arg6 harg6 arg7 harg7 hc0 hc1 hc2 x0 x1 xs0 (ix2 (0 : Fin 1) y) (ix2 (0 : Fin 1) k) rfl hy).trans
    ((Tile.acc_col_apply _ _ _).trans (congrArg (fun z => min z _) (ld_slice i xs0 y k hy)))

/-- Case C: the scratch row at a column outside that slice. -/
theorem scrC_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : cond0_1 i) (hc2 : ¬cond0_2 i)
    (x0 : Vec Ideal S1x1024x3 .f32) (x1 : Vec Ideal S1x3x2048 .f32) (xs0 : Vec Ideal S1x8192 .f32) (y : Fin 8192) (hy : y.val < 2048 * (i 2).val ∨ 2048 * (i 2).val + 2048 ≤ y.val) :
    sout0_C_0 c i arg3 harg3 arg4 harg4 arg5 harg5 arg6 harg6 arg7 harg7 hc0 hc1 hc2 x0 x1 xs0 (ix2 (0 : Fin 1) y) = xs0 (ix2 (0 : Fin 1) y) :=
  Pieces.sout_C_out c i arg3 harg3 arg4 harg4 arg5 harg5 arg6 harg6 arg7 harg7 hc0 hc1 hc2 x0 x1 xs0 (ix2 (0 : Fin 1) y) hy

/-- Case D: the scratch row at a column inside the slice this point updates. -/
theorem scrD_in (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec Ideal S1x1024x3 .f32) (x1 : Vec Ideal S1x3x2048 .f32) (xo2 : Vec Ideal S1x1024x1 .f32) (xs0 : Vec Ideal S1x8192 .f32) (y : Fin 8192) (k : Fin 2048) (hy : y.val = 2048 * (i 2).val + k.val) :
    sout0_D_0 c i arg3 harg3 arg4 harg4 arg5 harg5 arg6 harg6 arg7 harg7 hc0 hc1 hc2 x0 x1 xo2 xs0 (ix2 (0 : Fin 1) y) = min (xs0 (ix2 (0 : Fin 1) y)) (k0_pay8 (F := Ideal) x0 x1 (ix2 (0 : Fin 1) k)) :=
  (Pieces.sout_D_in c i arg3 harg3 arg4 harg4 arg5 harg5 arg6 harg6 arg7 harg7 hc0 hc1 hc2 x0 x1 xo2 xs0 (ix2 (0 : Fin 1) y) (ix2 (0 : Fin 1) k) rfl hy).trans
    ((Tile.acc_col_apply _ _ _).trans (congrArg (fun z => min z _) (ld_slice i xs0 y k hy)))

/-- Case D: the scratch row at a column outside that slice. -/
theorem scrD_out (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1x8192 .f32) (harg6 : arg6.IsWhole) (arg7 : Memref sig .tc .vmem S1x8192 .f32) (harg7 : arg7.IsWhole) (hc0 : ¬cond0_0 i) (hc1 : ¬cond0_1 i) (hc2 : cond0_2 i)
    (x0 : Vec Ideal S1x1024x3 .f32) (x1 : Vec Ideal S1x3x2048 .f32) (xo2 : Vec Ideal S1x1024x1 .f32) (xs0 : Vec Ideal S1x8192 .f32) (y : Fin 8192) (hy : y.val < 2048 * (i 2).val ∨ 2048 * (i 2).val + 2048 ≤ y.val) :
    sout0_D_0 c i arg3 harg3 arg4 harg4 arg5 harg5 arg6 harg6 arg7 harg7 hc0 hc1 hc2 x0 x1 xo2 xs0 (ix2 (0 : Fin 1) y) = xs0 (ix2 (0 : Fin 1) y) :=
  Pieces.sout_D_out c i arg3 harg3 arg4 harg4 arg5 harg5 arg6 harg6 arg7 harg7 hc0 hc1 hc2 x0 x1 xo2 xs0 (ix2 (0 : Fin 1) y) hy

/-- A batch's first point: both running minima start from +∞, so after it they are this tile's minima. -/
theorem holds_A (t : Fin cfg0.N) (h0 : t.val % 32 = 0) : Holds m c t.val t.isLt := by
  have ht := lt128 t
  have h1 : t.val % 4 = 0 := by omega
  have h2 : ¬t.val % 32 = 31 := by omega
  have hj := Blocks.coord2 t
  refine ⟨fun r => ?_, fun y => ?_, fun h => absurd h h2⟩
  · rw [outsAt0_A m c t h0 h1 h2]; dsimp only
    rw [Pieces.out_A_2, Tile.acc_row_apply, Tile.fill_row_apply]
    exact IsGlb.min (IsGlb.top (p := fun k => k < 0) fun _ h => absurd h (Nat.not_lt_zero _)) (row_tile m c t r) fun k => by omega
  · rw [outsAt0_A m c t h0 h1 h2]; dsimp only
    by_cases hin : 2048 * (t.val % 4) ≤ y.val ∧ y.val < 2048 * (t.val % 4) + 2048
    · obtain ⟨k, hy'⟩ : ∃ k : Fin 2048, y.val = 2048 * (t.val % 4) + k.val :=
        ⟨⟨y.val - 2048 * (t.val % 4), by omega⟩, by show y.val = 2048 * (t.val % 4) + (y.val - 2048 * (t.val % 4)); omega⟩
      have hy : y.val = 2048 * ((grid0.coords t) 2).val + k.val := by rw [hj]; exact hy'
      rw [scrA_in _ _ _ _ _ _ _ _ _ _ _ _ _ _ _ _ _ y k hy, Tile.fill_col_apply]
      exact IsGlb.min (IsGlb.top (p := fun k => k < 0) fun _ h => absurd h (Nat.not_lt_zero _)) (col_tile m c t y k hy') fun n => by omega
    · rw [scrA_out _ _ _ _ _ _ _ _ _ _ _ _ _ _ _ _ _ y (by rw [hj]; omega), Tile.fill_col_apply]
      exact IsGlb.top fun n => by omega

/-- A point in the middle of a sweep over the ground-truth blocks: both running minima are lowered by this tile's. -/
theorem holds_B (t : Fin cfg0.N) (h0 : ¬t.val % 32 = 0) (h1 : ¬t.val % 4 = 0) (h2 : ¬t.val % 32 = 31)
    (ih : Holds m c (t.val - 1) (Nat.lt_of_le_of_lt (Nat.sub_le _ _) t.isLt)) : Holds m c t.val t.isLt := by
  have ht := lt128 t
  have hj := Blocks.coord2 t
  obtain ⟨ih1, ih3, _⟩ := ih
  have eb : (t.val - 1) / 32 = t.val / 32 := by omega
  have ei : (t.val - 1) / 4 % 8 = t.val / 4 % 8 := by omega
  refine ⟨fun r => ?_, fun y => ?_, fun h => absurd h h2⟩
  · have p := ih1 r
    rw [eb, ei] at p
    rw [outsAt0_B m c t h0 h1 h2]; dsimp only
    rw [Pieces.out_B_2, Tile.acc_row_apply]
    exact IsGlb.min p (row_tile m c t r) fun k => by omega
  · have p := ih3 y
    rw [eb, ei] at p
    rw [outsAt0_B m c t h0 h1 h2]; dsimp only
    by_cases hin : 2048 * (t.val % 4) ≤ y.val ∧ y.val < 2048 * (t.val % 4) + 2048
    · obtain ⟨k, hy'⟩ : ∃ k : Fin 2048, y.val = 2048 * (t.val % 4) + k.val :=
        ⟨⟨y.val - 2048 * (t.val % 4), by omega⟩, by show y.val = 2048 * (t.val % 4) + (y.val - 2048 * (t.val % 4)); omega⟩
      have hy : y.val = 2048 * ((grid0.coords t) 2).val + k.val := by rw [hj]; exact hy'
      rw [scrB_in _ _ _ _ _ _ _ _ _ _ _ _ _ _ _ _ _ _ _ y k hy]
      exact IsGlb.min p (col_tile m c t y k hy') fun n => by omega
    · rw [scrB_out _ _ _ _ _ _ _ _ _ _ _ _ _ _ _ _ _ _ _ y (by rw [hj]; omega)]
      exact p.congr fun n => by omega

/-- The first point of a new block of predicted points: the row minima restart from +∞, the column minima go on. -/
theorem holds_C (t : Fin cfg0.N) (h0 : ¬t.val % 32 = 0) (h1 : t.val % 4 = 0)
    (ih : Holds m c (t.val - 1) (Nat.lt_of_le_of_lt (Nat.sub_le _ _) t.isLt)) : Holds m c t.val t.isLt := by
  have ht := lt128 t
  have h2 : ¬t.val % 32 = 31 := by omega
  have hj := Blocks.coord2 t
  have hylt : ∀ y : Fin 8192, y.val < 8192 := fun y => y.isLt
  obtain ⟨_, ih3, _⟩ := ih
  have eb : (t.val - 1) / 32 = t.val / 32 := by omega
  refine ⟨fun r => ?_, fun y => ?_, fun h => absurd h h2⟩
  · rw [outsAt0_C m c t h0 h1 h2]; dsimp only
    rw [Pieces.out_C_2, Tile.acc_row_apply, Tile.fill_row_apply]
    exact IsGlb.min (IsGlb.top (p := fun k => k < 0) fun _ h => absurd h (Nat.not_lt_zero _)) (row_tile m c t r) fun k => by omega
  · have p := ih3 y
    rw [eb] at p
    have hy8 := hylt y
    rw [outsAt0_C m c t h0 h1 h2]; dsimp only
    by_cases hin : 2048 * (t.val % 4) ≤ y.val ∧ y.val < 2048 * (t.val % 4) + 2048
    · obtain ⟨k, hy'⟩ : ∃ k : Fin 2048, y.val = 2048 * (t.val % 4) + k.val :=
        ⟨⟨y.val - 2048 * (t.val % 4), by omega⟩, by show y.val = 2048 * (t.val % 4) + (y.val - 2048 * (t.val % 4)); omega⟩
      have hy : y.val = 2048 * ((grid0.coords t) 2).val + k.val := by rw [hj]; exact hy'
      rw [scrC_in _ _ _ _ _ _ _ _ _ _ _ _ _ _ _ _ _ _ y k hy]
      exact IsGlb.min p (col_tile m c t y k hy') fun n => by omega
    · rw [scrC_out _ _ _ _ _ _ _ _ _ _ _ _ _ _ _ _ _ _ y (by rw [hj]; omega)]
      exact p.congr fun n => by omega

/-- A batch's last point: as in the middle of a sweep, and the scratch row is copied to the second output's buffer. -/
theorem holds_D (t : Fin cfg0.N) (h0 : ¬t.val % 32 = 0) (h1 : ¬t.val % 4 = 0) (h2 : t.val % 32 = 31)
    (ih : Holds m c (t.val - 1) (Nat.lt_of_le_of_lt (Nat.sub_le _ _) t.isLt)) : Holds m c t.val t.isLt := by
  have ht := lt128 t
  have hj := Blocks.coord2 t
  obtain ⟨ih1, ih3, _⟩ := ih
  have eb : (t.val - 1) / 32 = t.val / 32 := by omega
  have ei : (t.val - 1) / 4 % 8 = t.val / 4 % 8 := by omega
  refine ⟨fun r => ?_, fun y => ?_, fun _ y => ?_⟩
  · have p := ih1 r
    rw [eb, ei] at p
    rw [outsAt0_D m c t h0 h1 h2]; dsimp only
    rw [Pieces.out_D_2, Tile.acc_row_apply]
    exact IsGlb.min p (row_tile m c t r) fun k => by omega
  · have p := ih3 y
    rw [eb, ei] at p
    rw [outsAt0_D m c t h0 h1 h2]; dsimp only
    by_cases hin : 2048 * (t.val % 4) ≤ y.val ∧ y.val < 2048 * (t.val % 4) + 2048
    · obtain ⟨k, hy'⟩ : ∃ k : Fin 2048, y.val = 2048 * (t.val % 4) + k.val :=
        ⟨⟨y.val - 2048 * (t.val % 4), by omega⟩, by show y.val = 2048 * (t.val % 4) + (y.val - 2048 * (t.val % 4)); omega⟩
      have hy : y.val = 2048 * ((grid0.coords t) 2).val + k.val := by rw [hj]; exact hy'
      rw [scrD_in _ _ _ _ _ _ _ _ _ _ _ _ _ _ _ _ _ _ _ y k hy]
      exact IsGlb.min p (col_tile m c t y k hy') fun n => by omega
    · rw [scrD_out _ _ _ _ _ _ _ _ _ _ _ _ _ _ _ _ _ _ _ y (by rw [hj]; omega)]
      exact p.congr fun n => by omega
  · rw [outsAt0_D m c t h0 h1 h2]; dsimp only
    rw [Pieces.out_D_3, Tile.copy_apply]

/-- After every point the buffers hold what `Holds` says: by induction on the point, one step per control case. -/
theorem holds : ∀ (n : ℕ) (h : n < cfg0.N), Holds m c n h
  | 0, h => holds_A m c ⟨0, h⟩ rfl
  | n + 1, h => by
    have ih := holds n (Nat.lt_of_succ_lt h)
    by_cases h0 : (n + 1) % 32 = 0
    · exact holds_A m c ⟨n + 1, h⟩ h0
    · by_cases h1 : (n + 1) % 4 = 0
      · exact holds_C m c ⟨n + 1, h⟩ h0 h1 ih
      · by_cases h2 : (n + 1) % 32 = 31
        · exact holds_D m c ⟨n + 1, h⟩ h0 h1 h2 ih
        · exact holds_B m c ⟨n + 1, h⟩ h0 h1 h2 ih

/-- At the last point of a sweep over the ground-truth blocks the first output's buffer holds the row minima over ALL
    ground-truth points. -/
theorem out1_at (t : Fin cfg0.N) (h3 : t.val % 4 = 3) (r : Fin 1024) (hb : t.val / 32 < 4)
    (hn : 1024 * (t.val / 4 % 8) + r.val < 8192) :
    (outsAt0 m c t.val t.isLt).1 (ix3 (0 : Fin 1) r (0 : Fin 1))
      = rowMin (Pa m c) (Ga m c) ⟨t.val / 32, hb⟩ ⟨1024 * (t.val / 4 % 8) + r.val, hn⟩ := by
  have p := (holds m c t.val t.isLt).1 r
  unfold rowMin
  refine (p.congr (q := fun k => k < 8192) fun k => by omega).eq_inf _ fun j => ?_
  unfold D
  rw [dif_pos ⟨hb, hn, j.isLt⟩]

/-- At a batch's last point the second output's buffer holds the column minima over ALL predicted points. -/
theorem out2_at (t : Fin cfg0.N) (h31 : t.val % 32 = 31) (y : Fin 8192) (hb : t.val / 32 < 4) :
    (outsAt0 m c t.val t.isLt).2.1 (ix3 (0 : Fin 1) (0 : Fin 1) y) = colMin (Pa m c) (Ga m c) ⟨t.val / 32, hb⟩ y := by
  obtain ⟨_, p3, p2⟩ := holds m c t.val t.isLt
  have hy8 := y.isLt
  rw [p2 h31 y]
  unfold colMin
  refine ((p3 y).congr (q := fun k => k < 8192) fun k => by omega).eq_inf _ fun j => ?_
  unfold D
  rw [dif_pos ⟨hb, j.isLt, y.isLt⟩]

end Cert.KernelIdeal.Inv
end
-- ==== Proof.MinLaw.lean ====
/-
  The order and ring facts that relate the two ways of computing nearest-neighbour distances.

  One program minimises squared distances and takes the root of the minimum; the other takes the root of every
  squared distance and minimises the roots. They agree because the root, x ↦ √(max x 0), is monotone on the
  extended reals and sends +∞ to +∞, so it commutes with the minimum of a finite family (the empty minimum +∞
  included). A minimum taken as a running `min` that starts from +∞ is the infimum of the family.

  One program writes the squared distance of two points of ℝ³ as the sum of the squared coordinate differences; the
  other expands it as |p|² + |g|² − 2 p·g. For real coordinates these are the same number (the binomial identity in
  each coordinate); the identity is stated between the two literal forms, each sum started from zero.
-/
import Mathlib
import proofs.«121680_j40939628265652_2_alg».proof.Proof.Spec

namespace Cert.Chamfer

open Idealize.ShloMosaic

/-- A running minimum over a finite family, started from +∞, is the infimum of the family. -/
theorem fold_min_top_eq_inf {ι : Type*} (s : Finset ι) (f : ι → EReal) : s.fold min ⊤ f = s.inf f := by
  refine eq_of_forall_le_iff fun c => ?_
  rw [Finset.le_fold_min, Finset.le_inf_iff]
  exact ⟨fun h => h.2, fun h => ⟨le_top, h⟩⟩

/-- The square root on the extended reals (−∞ at −∞ and at negative numbers, +∞ at +∞) is monotone. -/
theorem sqrt_mono : Monotone Ideal.sqrt := by
  intro x y h
  induction x using EReal.rec with
  | bot => exact bot_le
  | top => rw [top_le_iff.1 h]
  | coe r =>
    induction y using EReal.rec with
    | bot => exact absurd (le_bot_iff.1 h) (EReal.coe_ne_bot r)
    | top => exact le_top
    | coe t =>
      have hrt : r ≤ t := EReal.coe_le_coe_iff.1 h
      rw [Ideal.sqrt_coe, Ideal.sqrt_coe]
      by_cases hr : r < 0
      · rw [if_pos hr]; exact bot_le
      · rw [if_neg hr, if_neg (by linarith)]
        exact EReal.coe_le_coe_iff.2 (Real.sqrt_le_sqrt hrt)

/-- The distance from a squared distance, x ↦ √(max x 0), is monotone. -/
theorem root_mono : Monotone root :=
  fun _ _ h => sqrt_mono (max_le_max h le_rfl)

/-- The root of +∞ is +∞. -/
theorem root_top : root ⊤ = ⊤ := by
  rw [root, max_eq_left le_top, Ideal.sqrt_top]

/-- The root of the least of finitely many squared distances is the least of their roots. -/
theorem root_inf {ι : Type*} (s : Finset ι) (f : ι → EReal) : root (s.inf f) = s.inf fun i => root (f i) :=
  Finset.apply_inf_eq_inf_comp_of_linearOrder root root_mono root_top

/-- For points p, g of ℝ³ the sum of the squared coordinate differences is |p|² + |g|² − 2 p·g, each sum written
    from zero as the two programs write it. -/
theorem sq_dist_expand (p0 p1 p2 g0 g1 g2 : ℝ) :
    (0 + ((p0 : EReal) - g0) * ((p0 : EReal) - g0) + ((p1 : EReal) - g1) * ((p1 : EReal) - g1)
        + ((p2 : EReal) - g2) * ((p2 : EReal) - g2))
      = ((0 + ((p0 : EReal) * p0 + (p1 : EReal) * p1 + (p2 : EReal) * p2))
          + (0 + ((g0 : EReal) * g0 + (g1 : EReal) * g1 + (g2 : EReal) * g2)))
        - 2 * ((p0 : EReal) * g0 + (p1 : EReal) * g1 + (p2 : EReal) * g2) := by
  have h2 : (2 : EReal) = ((2 : ℝ) : EReal) := rfl
  rw [h2]
  simp only [← EReal.coe_zero, ← EReal.coe_mul, ← EReal.coe_add, ← EReal.coe_sub]
  exact congrArg _ (by ring)

end Cert.Chamfer
-- ==== Proof.RefNear.lean ====
/-
  The reference program's two arrays of nearest-neighbour distances, read as mathematics.

  The reference forms, for every batch b, predicted point n and ground-truth point m, the number
      √(max(|P[b,n]|² + |G[b,m]|² − 2 P[b,n]·G[b,m], 0)),
  each of the three sums over the coordinates started from zero, and then takes the minimum of these numbers over m
  (for each predicted point) and over n (for each ground-truth point), each minimum a running `min` started from +∞.

  For points with real coordinates the expanded form is the squared distance Σ_d (P[b,n,d] − G[b,m,d])², so the
  number is the distance `root (d2 P G b n m)`; the root is monotone and fixes +∞, so the minimum of the roots is the
  root of the minimum. Hence the two arrays are `nearP` and `nearG`: each point's distance to the nearest point of
  the other set. The coordinates must be real: at an infinite coordinate the expansion is not the squared distance.
-/
import Mathlib
import proofs.«121680_j40939628265652_2_alg».proof.Proof.Gen.ReferenceIdeal.Read
import proofs.«121680_j40939628265652_2_alg».proof.Proof.Spec
import proofs.«121680_j40939628265652_2_alg».proof.Proof.MinLaw

noncomputable section

namespace Cert.Chamfer.Ref

open Idealize.ShloMosaic Idealize.ShloMosaic.ValueIdx Cert.ReferenceIdeal Cert.ReferenceIdeal.Gen Cert.ReferenceIdeal.Read

/-- The bit pattern 0x40000000 is the number two. -/
theorem two_f32 : Ideal.ofBits .f32 0x40000000#32 = (2 : EReal) := by
  simp [Ideal.ofBits, Ideal.ieee, -EReal.coe_mul]; norm_num; rfl

/-- The bit pattern 0x7F800000 is +∞. -/
theorem top_f32 : Ideal.ofBits .f32 0x7F800000#32 = (⊤ : EReal) := by
  simp [Ideal.ofBits, Ideal.ieee]

/-- For points with real coordinates, the reference's array of all pairwise numbers holds at (b, n, m) the distance
    between predicted point n and ground-truth point m of batch b: its expanded form |p|² + |g|² − 2 p·g is the sum
    of the squared coordinate differences. -/
theorem v15_at (x0 x1 : (⟨S4x8192x3, .f32⟩ : BufTy).Contents (Elt Ideal))
    (hP : ∀ i, ∃ r : ℝ, x0 i = (r : EReal)) (hG : ∀ i, ∃ r : ℝ, x1 i = (r : EReal))
    (b : Fin 4) (n m : Fin 8192) :
    val_main_v15 (F := Ideal) x0 x1 (ix3 b n m) = root (d2 x0 x1 b n m) := by
  -- the entries each operation reads: coordinate k of predicted point n, and of ground-truth point m, of batch b
  have hl : ∀ k : Fin 3, lidx_main_v4 (ix3 b n m) k = ix3 b n k := fun k => funext fun a => by
    match a with | ⟨0, _⟩ => rfl | ⟨1, _⟩ => rfl | ⟨2, _⟩ => rfl
  have hr : ∀ k : Fin 3, ridx_main_v4 (ix3 b n m) k = ix3 b m k := fun k => funext fun a => by
    match a with | ⟨0, _⟩ => rfl | ⟨1, _⟩ => rfl | ⟨2, _⟩ => rfl
  have h1 : ∀ k : Fin 3, idx_main_v1 (idx_main_v5 (idx_main_v7 (ix3 b n m))) k = ix3 b n k := fun k => funext fun a => by
    match a with | ⟨0, _⟩ => rfl | ⟨1, _⟩ => rfl | ⟨2, _⟩ => rfl
  have h3 : ∀ k : Fin 3, idx_main_v3 (idx_main_v6 (idx_main_v8 (ix3 b n m))) k = ix3 b m k := fun k => funext fun a => by
    match a with | ⟨0, _⟩ => rfl | ⟨1, _⟩ => rfl | ⟨2, _⟩ => rfl
  -- the six real coordinates
  obtain ⟨p0, hp0⟩ := hP (ix3 b n 0)
  obtain ⟨p1, hp1⟩ := hP (ix3 b n 1)
  obtain ⟨p2, hp2⟩ := hP (ix3 b n 2)
  obtain ⟨g0, hg0⟩ := hG (ix3 b m 0)
  obtain ⟨g1, hg1⟩ := hG (ix3 b m 1)
  obtain ⟨g2, hg2⟩ := hG (ix3 b m 2)
  rw [val_main_v15_apply, val_main_v14_apply, val_main_v13_apply, val_main_cst_2_apply,
    val_main_v12_apply, val_main_v11_apply, val_main_v10_apply, val_main_cst_1_apply,
    val_main_v9_apply, val_main_v8_apply, val_main_v7_apply, val_main_v6_apply, val_main_v5_apply,
    val_main_v4_apply, val_main_v3_apply, val_main_v1_apply, val_main_cst_apply, val_main_cst_0_apply]
  simp only [val_main_v0_apply, val_main_v2_apply, h1, h3, hl, hr, Fin.sum_univ_three, Ideal.hostUnary_sqrt_def,
    Ideal.maximumf_def, Ideal.subf_def, Ideal.addf_def, Ideal.mulf_def, Ideal.ofBits_def, Ideal.ofBits_zero_f32, two_f32]
  unfold root d2 sq
  rw [hp0, hp1, hp2, hg0, hg1, hg2, sq_dist_expand]

/-- For points with real coordinates, the reference's minimum over the ground-truth points is each predicted
    point's distance to its nearest ground-truth point. -/
theorem v16_eq (x0 x1 : (⟨S4x8192x3, .f32⟩ : BufTy).Contents (Elt Ideal))
    (hP : ∀ i, ∃ r : ℝ, x0 i = (r : EReal)) (hG : ∀ i, ∃ r : ℝ, x1 i = (r : EReal)) :
    val_main_v16 (F := Ideal) x0 x1 = nearP x0 x1 := by
  funext j
  obtain ⟨b, n, rfl⟩ : ∃ (b : Fin 4) (n : Fin 8192), j = ix2 b n := ⟨j 0, j 1, eq_ix2 j⟩
  have h : Shape.Reduces S4x8192x8192 [2] S4x8192 := by decide
  unfold val_main_v16
  refine (Host.reduce_eq_fold_single (FloatOps.minimumf (F := Ideal) (φ := .f32)) (val_main_v15 (F := Ideal) x0 x1)
    (val_main_cst_3 (F := Ideal)) reducesTo_S4x8192x8192_S4x8192_d2 h h_S_ (ix2 b n)).trans ?_
  -- the minimum runs over the ground-truth points m, at the entries (b, n, m)
  have hf : (val_main_v15 (F := Ideal) x0 x1 ∘ h.lift (ix2 b n)) = fun m : Fin 8192 => root (d2 x0 x1 b n m) :=
    funext fun (m : Fin 8192) => by
      have e : h.lift (ix2 b n) m = ix3 b n m := funext fun a => Fin.ext (by
        match a with | ⟨0, _⟩ => rfl | ⟨1, _⟩ => rfl | ⟨2, _⟩ => rfl)
      show val_main_v15 (F := Ideal) x0 x1 (h.lift (ix2 b n) m) = _
      rw [e, v15_at x0 x1 hP hG]
  rw [hf, val_main_cst_3_apply, Ideal.ofBits_def, top_f32]
  show (Finset.univ : Finset (Fin 8192)).fold min ⊤ (fun m => root (d2 x0 x1 b n m)) = root (rowMin x0 x1 b n)
  rw [fold_min_top_eq_inf, rowMin, root_inf]

/-- For points with real coordinates, the reference's minimum over the predicted points is each ground-truth
    point's distance to its nearest predicted point. -/
theorem v17_eq (x0 x1 : (⟨S4x8192x3, .f32⟩ : BufTy).Contents (Elt Ideal))
    (hP : ∀ i, ∃ r : ℝ, x0 i = (r : EReal)) (hG : ∀ i, ∃ r : ℝ, x1 i = (r : EReal)) :
    val_main_v17 (F := Ideal) x0 x1 = nearG x0 x1 := by
  funext j
  obtain ⟨b, m, rfl⟩ : ∃ (b : Fin 4) (m : Fin 8192), j = ix2 b m := ⟨j 0, j 1, eq_ix2 j⟩
  have h : Shape.Reduces S4x8192x8192 [1] S4x8192 := by decide
  unfold val_main_v17
  refine (Host.reduce_eq_fold_single (FloatOps.minimumf (F := Ideal) (φ := .f32)) (val_main_v15 (F := Ideal) x0 x1)
    (val_main_cst_4 (F := Ideal)) reducesTo_S4x8192x8192_S4x8192_d1 h h_S_ (ix2 b m)).trans ?_
  -- the minimum runs over the predicted points n, at the entries (b, n, m)
  have hf : (val_main_v15 (F := Ideal) x0 x1 ∘ h.lift (ix2 b m)) = fun n : Fin 8192 => root (d2 x0 x1 b n m) :=
    funext fun (n : Fin 8192) => by
      have e : h.lift (ix2 b m) n = ix3 b n m := funext fun a => Fin.ext (by
        match a with | ⟨0, _⟩ => rfl | ⟨1, _⟩ => rfl | ⟨2, _⟩ => rfl)
      show val_main_v15 (F := Ideal) x0 x1 (h.lift (ix2 b m) n) = _
      rw [e, v15_at x0 x1 hP hG]
  rw [hf, val_main_cst_4_apply, Ideal.ofBits_def, top_f32]
  show (Finset.univ : Finset (Fin 8192)).fold min ⊤ (fun n => root (d2 x0 x1 b n m)) = root (colMin x0 x1 b m)
  rw [fold_min_top_eq_inf, colMin, root_inf]

end Cert.Chamfer.Ref

end
-- ==== Proof.Arrays.lean ====
/-
  From what the kernel's two output staging buffers hold at the points where they are written back, to what the two
  output arrays hold after the whole grid has run.

  The grid has 128 points t = 32 b + 4 i + j: batch b of 4, block i of 8 blocks of 1024 predicted points, block j of 4
  blocks of 2048 ground-truth points. The first output array, [4, 8192, 1], is written back a block [1, 1024, 1] at a
  time, at the last j of every (b, i), that is at the points t with t mod 4 = 3, into rows 1024 i … 1024 i + 1023 of
  batch b. The second output array, [4, 1, 8192], is written back a block [1, 1, 8192] at a time, at the last (i, j) of
  every b, that is at the points t with t mod 32 = 31, into batch b.

  If at each such point the buffer holds the matching entries of one function of (batch, point), then, because every
  entry of each array lies in the block of exactly such a point (row n of batch b in the block of t = 32 b + 4 ⌊n/1024⌋ + 3,
  resp. of t = 32 b + 31), each array ends holding that function.
-/
import proofs.«121680_j40939628265652_2_alg».proof.Proof.Gen.KernelIdeal.Frame
import proofs.«121680_j40939628265652_2_alg».proof.Proof.Spec
import Idealize.ShloMosaic.Lib.Pipeline.Value
import Idealize.ShloMosaic.Lib.ValueIdx

noncomputable section

namespace Cert.KernelIdeal.Arrays

open Cert.KernelIdeal Cert.KernelIdeal.Gen Cert.Chamfer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The first output array as a function of (batch, predicted point): entry (b, n, 0) is `R b n`. -/
abbrev G2 (R : Fin 4 → Fin 8192 → EReal) : S4x8192x1.Idx → Elt Ideal .f32 := fun i => R (i 0) (i 1)

/-- The second output array as a function of (batch, ground-truth point): entry (b, 0, k) is `C b k`. -/
abbrev G3 (C : Fin 4 → Fin 8192 → EReal) : S4x1x8192.Idx → Elt Ideal .f32 := fun i => C (i 0) (i 2)

/-- At point t the first output's block index is (⌊t/32⌋, ⌊t/4⌋ mod 8, 0): batch and block of predicted points. -/
theorem idx2 : ∀ t : Fin cfg0.N, win0_2.index t (0 : Fin 3) = t.val / 32 ∧ win0_2.index t (1 : Fin 3) = t.val / 4 % 8
    ∧ win0_2.index t (2 : Fin 3) = 0 :=
  (by decide +kernel : ∀ t : Fin grid0.N, _)

/-- At point t the second output's block index is (⌊t/32⌋, 0, 0): the batch. -/
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- What a point t with t mod 4 = 3 writes back to the first output array is its block of `G2 R`: the buffer's entry
    (0, r, 0) goes to entry (⌊t/32⌋, 1024 (⌊t/4⌋ mod 8) + r, 0). -/
theorem flushed2_eq (R : Fin 4 → Fin 8192 → EReal)
    (h : ∀ (t : Fin cfg0.N), t.val % 4 = 3 → ∀ (r : Fin 1024) (hb : t.val / 32 < 4) (hn : 1024 * (t.val / 4 % 8) + r.val < 8192),
      (outsAt0 m c t.val t.isLt).1 (ix3 (0 : Fin 1) r (0 : Fin 1)) = R ⟨t.val / 32, hb⟩ ⟨1024 * (t.val / 4 % 8) + r.val, hn⟩)
    (t : Fin cfg0.N) (hf : (cfg0.win 2).flush t = true) :
    (dats m 0 c).flushed 2 t = ((cfg0.win 2).blk t).view.read (Elt Ideal) (G2 R) := by
  show (cfg0.win 2).cut (grid0.coords t) ((dats m 0 c).after 2 t) = _
  rw [after0_2]
  have h3 : t.val % 4 = 3 := (flush0_2 t).mp hf
  obtain ⟨e0, e1, e2⟩ := idx2 t
  have hN : cfg0.N = 128 := N_0
  have ht : t.val < 128 := by have := t.isLt; omega
  funext y
  have hy0 : (y 0).val < 1 := (y 0).isLt
  have hy1 : (y 1).val < 1024 := (y 1).isLt
  have hy2 : (y 2).val < 1 := (y 2).isLt
  have hb : t.val / 32 < 4 := by omega
  have hn : 1024 * (t.val / 4 % 8) + (y 1).val < 8192 := by omega
  have e_in : (cfg0.win 2).xinj (grid0.coords t) y = ix3 (0 : Fin 1) (⟨(y 1).val, hy1⟩ : Fin 1024) (0 : Fin 1) :=
    funext fun a => Fin.ext (by
      match a with
      | ⟨0, _⟩ => show (y 0).val = 0; omega
      | ⟨1, _⟩ => rfl
      | ⟨2, _⟩ => show (y 2).val = 0; omega)
  show (outsAt0 m c t.val t.isLt).1 ((cfg0.win 2).xinj (grid0.coords t) y) = G2 R (((cfg0.win 2).blk t).view.emb y)
  refine (congrArg (outsAt0 m c t.val t.isLt).1 e_in).trans ((h t h3 ⟨(y 1).val, hy1⟩ hb hn).trans ?_)
  show R _ _ = R ((((cfg0.win 2).blk t).view.emb y) 0) ((((cfg0.win 2).blk t).view.emb y) 1)
  refine congrArg₂ R (Fin.ext ?_) (Fin.ext ?_)
  · show t.val / 32 = win0_2.index t (0 : Fin 3) * 1 + 1 * (y 0).val
    omega
  · show 1024 * (t.val / 4 % 8) + (y 1).val = win0_2.index t (1 : Fin 3) * 1024 + 1 * (y 1).val
    omega

/-- An entry of the first output array is in point t's block iff each coordinate is in the block's range. -/
theorem mem_blk2 (t : Fin cfg0.N) (i : S4x8192x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl

/-- Every entry (b, n, 0) of the first output array is written back: by the point t = 32 b + 4 ⌊n/1024⌋ + 3. -/
theorem cover2 (i : S4x8192x1.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1 := (i 2).isLt
  have hN : cfg0.N = 128 := N_0
  have hlt : 32 * (i 0).val + 4 * ((i 1).val / 1024) + 3 < cfg0.N := by omega
  refine ⟨⟨32 * (i 0).val + 4 * ((i 1).val / 1024) + 3, hlt⟩, (flush0_2 _).mpr (by show (32 * (i 0).val + 4 * ((i 1).val / 1024) + 3) % 4 = 3; omega), ?_⟩
  rw [mem_blk2]
  obtain ⟨e0, e1, e2⟩ := idx2 ⟨32 * (i 0).val + 4 * ((i 1).val / 1024) + 3, hlt⟩
  have tv : (⟨32 * (i 0).val + 4 * ((i 1).val / 1024) + 3, hlt⟩ : Fin cfg0.N).val = 32 * (i 0).val + 4 * ((i 1).val / 1024) + 3 := rfl
  rw [tv] at e0 e1
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 1 ≤ (i 2).val ∧ (i 2).val < win0_2.index _ (2 : Fin 3) * 1 + 1
    omega

/-- If at every point t with t mod 4 = 3 the first output's buffer holds, at row r, the value of `R` at batch ⌊t/32⌋ and
    predicted point 1024 (⌊t/4⌋ mod 8) + r, then the first output array ends holding `R` at every (batch, point). -/
theorem final2 (R : Fin 4 → Fin 8192 → EReal)
    (h : ∀ (t : Fin cfg0.N), t.val % 4 = 3 → ∀ (r : Fin 1024) (hb : t.val / 32 < 4) (hn : 1024 * (t.val / 4 % 8) + r.val < 8192),
      (outsAt0 m c t.val t.isLt).1 (ix3 (0 : Fin 1) r (0 : Fin 1)) = R ⟨t.val / 32, hb⟩ ⟨1024 * (t.val / 4 % 8) + r.val, hn⟩) :
    (dats m 0 c).arrAt 2 cfg0.N = G2 R :=
  (dats m 0 c).arrAt_eq_of_cover 2 (G2 R) (fun t hf => flushed2_eq m c R h t hf) cover2

/-- What a point t with t mod 32 = 31 writes back to the second output array is its block of `G3 C`: the buffer's entry
    (0, 0, k) goes to entry (⌊t/32⌋, 0, k). -/
theorem flushed3_eq (C : Fin 4 → Fin 8192 → EReal)
    (h : ∀ (t : Fin cfg0.N), t.val % 32 = 31 → ∀ (k : Fin 8192) (hb : t.val / 32 < 4),
      (outsAt0 m c t.val t.isLt).2.1 (ix3 (0 : Fin 1) (0 : Fin 1) k) = C ⟨t.val / 32, hb⟩ k)
    (t : Fin cfg0.N) (hf : (cfg0.win 3).flush t = true) :
    (dats m 0 c).flushed 3 t = ((cfg0.win 3).blk t).view.read (Elt Ideal) (G3 C) := by
  show (cfg0.win 3).cut (grid0.coords t) ((dats m 0 c).after 3 t) = _
  rw [after0_3]
  have h31 : t.val % 32 = 31 := (flush0_3 t).mp hf
  obtain ⟨e0, e1, e2⟩ := idx3 t
  have hN : cfg0.N = 128 := N_0
  have ht : t.val < 128 := by have := t.isLt; omega
  funext y
  have hy0 : (y 0).val < 1 := (y 0).isLt
  have hy1 : (y 1).val < 1 := (y 1).isLt
  have hy2 : (y 2).val < 8192 := (y 2).isLt
  have hb : t.val / 32 < 4 := by omega
  have e_in : (cfg0.win 3).xinj (grid0.coords t) y = ix3 (0 : Fin 1) (0 : Fin 1) (⟨(y 2).val, hy2⟩ : Fin 8192) :=
    funext fun a => Fin.ext (by
      match a with
      | ⟨0, _⟩ => show (y 0).val = 0; omega
      | ⟨1, _⟩ => show (y 1).val = 0; omega
      | ⟨2, _⟩ => rfl)
  show (outsAt0 m c t.val t.isLt).2.1 ((cfg0.win 3).xinj (grid0.coords t) y) = G3 C (((cfg0.win 3).blk t).view.emb y)
  refine (congrArg (outsAt0 m c t.val t.isLt).2.1 e_in).trans ((h t h31 ⟨(y 2).val, hy2⟩ hb).trans ?_)
  show C _ _ = C ((((cfg0.win 3).blk t).view.emb y) 0) ((((cfg0.win 3).blk t).view.emb y) 2)
  refine congrArg₂ C (Fin.ext ?_) (Fin.ext ?_)
  · show t.val / 32 = win0_3.index t (0 : Fin 3) * 1 + 1 * (y 0).val
    omega
  · show (y 2).val = win0_3.index t (2 : Fin 3) * 8192 + 1 * (y 2).val
    omega

/-- An entry of the second output array is in point t's block iff each coordinate is in the block's range. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v1_1).slice (win0_3.rect t)).set ↔ _
  rw [View.set_slice_whole, Rect.mem_set_unit]
  exact Iff.rfl

/-- Every entry (b, 0, k) of the second output array is written back: by the point t = 32 b + 31. -/
theorem cover3 (i : S4x1x8192.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 8192 := (i 2).isLt
  have hN : cfg0.N = 128 := N_0
  have hlt : 32 * (i 0).val + 31 < cfg0.N := by omega
  refine ⟨⟨32 * (i 0).val + 31, hlt⟩, (flush0_3 _).mpr (by show (32 * (i 0).val + 31) % 32 = 31; omega), ?_⟩
  rw [mem_blk3]
  obtain ⟨e0, e1, e2⟩ := idx3 ⟨32 * (i 0).val + 31, hlt⟩
  have tv : (⟨32 * (i 0).val + 31, hlt⟩ : Fin cfg0.N).val = 32 * (i 0).val + 31 := rfl
  rw [tv] at e0
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1 ≤ (i 1).val ∧ (i 1).val < win0_3.index _ (1 : Fin 3) * 1 + 1
    omega
  | ⟨2, _⟩ =>
    show win0_3.index _ (2 : Fin 3) * 8192 ≤ (i 2).val ∧ (i 2).val < win0_3.index _ (2 : Fin 3) * 8192 + 8192
    omega

/-- If at every point t with t mod 32 = 31 the second output's buffer holds, at column k, the value of `C` at batch ⌊t/32⌋
    and ground-truth point k, then the second output array ends holding `C` at every (batch, point). -/
theorem final3 (C : Fin 4 → Fin 8192 → EReal)
    (h : ∀ (t : Fin cfg0.N), t.val % 32 = 31 → ∀ (k : Fin 8192) (hb : t.val / 32 < 4),
      (outsAt0 m c t.val t.isLt).2.1 (ix3 (0 : Fin 1) (0 : Fin 1) k) = C ⟨t.val / 32, hb⟩ k) :
    (dats m 0 c).arrAt 3 cfg0.N = G3 C :=
  (dats m 0 c).arrAt_eq_of_cover 3 (G3 C) (fun t hf => flushed3_eq m c C h t hf) cover3

end Cert.KernelIdeal.Arrays

end
-- ==== Proof.TailRun.lean ====
/-
  What the program computes after its kernel region, as a function of the region's two result arrays.

  The region leaves two arrays of squared nearest-neighbour distances, one of shape [4, 8192, 1] and one of shape
  [4, 1, 8192]. The remaining operations treat both alike: drop the unit axis (a reshape to [4, 8192], which keeps
  the row-major order of the entries), clamp every entry at zero from below, take its square root, add up all
  4 · 8192 entries starting from zero, and divide the sum by 32768 = 4 · 8192; the two means are then added. `tailK`
  is that function, spelled operation by operation as the program spells it, at any float instance.

  `run_tail` reads it off the program's run: the result scalar ends at `tailK` of whatever the two result arrays
  hold when the region is left, and the two argument arrays end as they were launched. At the extended reals,
  `near_of_out1` and `near_of_out2` read the clamp-and-root of a reshaped result array entry by entry: entry (b, n)
  is the root, √(max x 0), of the array's entry at (b, n, 0), respectively (b, 0, n).
-/
import proofs.«121680_j40939628265652_2_alg».proof.Proof.Gen.KernelIdeal.Frame
import proofs.«121680_j40939628265652_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Tail

open Idealize.ShloMosaic Idealize.ShloMosaic.TcCoe
open Idealize.SL Idealize.SL.Sem
open Idealize.ShloMosaic.StableHlo
open Cert.KernelIdeal Cert.KernelIdeal.Gen

variable {F : FTy → Type} [FloatOps F]

/-- The operations after the region, applied to the region's two result arrays `X1` ([4, 8192, 1]) and `X2`
    ([4, 1, 8192]): for each, reshape to [4, 8192], maximum with the zero array, square root, sum of all entries
    from zero, division by 32768; then the sum of the two quotients. -/
def tailK (X1 : (⟨S4x8192x1, .f32⟩ : BufTy).Contents (Elt F)) (X2 : (⟨S4x1x8192, .f32⟩ : BufTy).Contents (Elt F)) :
    (⟨S_, .f32⟩ : BufTy).Contents (Elt F) :=
  addf
    (Host.divf
      (Host.reduceAdd
        (Host.sqrt (maximumf (shapeCast S4x8192 X1 shapeCasts_S4x8192x1_S4x8192)
          (broadcastInDim S4x8192 ![] bcast_S_S4x8192 (constant (F := F) S_ .f32 0x00000000#32))))
        (constant (F := F) S_ .f32 0x00000000#32) reducesTo_S4x8192_S_d0_1 h_S_)
      (constant (F := F) S_ .f32 0x47000000#32))
    (Host.divf
      (Host.reduceAdd
        (Host.sqrt (maximumf (shapeCast S4x8192 X2 shapeCasts_S4x1x8192_S4x8192)
          (broadcastInDim S4x8192 ![] bcast_S_S4x8192 (constant (F := F) S_ .f32 0x00000000#32))))
        (constant (F := F) S_ .f32 0x00000000#32) reducesTo_S4x8192_S_d0_1 h_S_)
      (constant (F := F) S_ .f32 0x47000000#32))

variable (m : (ℓ : Loc nD τ sig) → Buf (Elt F) ℓ) (ρ : Dev nD → PrngReg)

/-- The result scalar after the last operation is `tailK` of the contents `O1`, `O2` the two result arrays have
    when the region is left: each later operation writes only its own result, so unfolding them one by one from the
    last leaves the whole chain applied to the two arrays as the region left them. -/
theorem tail_v14 (c : Dev nD) (O1 : Buf (Elt F) ((c : Thread nD τ).loc main_v1_0)) (O2 : Buf (Elt F) ((c : Thread nD τ).loc main_v1_1))
    (h1 : (dats m 0 c).arrAt 2 cfg0.N = O1) (h2 : (dats m 0 c).arrAt 3 cfg0.N = O2) :
    Pipeline.afterTail₀ cfgs (dats m) 0 (V0 m) [hostOps1] c main_v14 = tailK O1 O2 := by
  have e1 : Pipeline.withArrays (cfgs 0).spec c (V0 m c) (fun w => (dats m 0 c).arrAt w (cfgs 0).N) (Proc.devRef .tc main_v1_0) = O1 :=
    (Pipeline.withArrays_arr spec0 launch0.win.arr_inj c (V0 m c) (fun w => (dats m 0 c).arrAt w (cfgs 0).N) 2).trans h1
  have e2 : Pipeline.withArrays (cfgs 0).spec c (V0 m c) (fun w => (dats m 0 c).arrAt w (cfgs 0).N) (Proc.devRef .tc main_v1_1) = O2 :=
    (Pipeline.withArrays_arr spec0 launch0.win.arr_inj c (V0 m c) (fun w => (dats m 0 c).arrAt w (cfgs 0).N) 3).trans h2
  unfold Pipeline.afterTail₀
  show StableHlo.after hostOps1 _ (Proc.devRef .tc main_v14) = _
  after_results
  rw [e1, e2]
  rfl

/-- The program's run, read at its result and its arguments: from any memory with zero counters every weakly fair
    execution terminates, the result scalar holds `tailK` of the two result arrays' final contents (`O1`, `O2`,
    whatever they are shown to be), and both argument arrays hold what they held at the launch — the first is only
    read by the region, the second is only read by the transposition before it. -/
theorem run_tail (O1 : (c : Dev nD) → Buf (Elt F) ((c : Thread nD τ).loc main_v1_0))
    (O2 : (c : Dev nD) → Buf (Elt F) ((c : Thread nD τ).loc main_v1_1))
    (h1 : ∀ c, (dats m 0 c).arrAt 2 cfg0.N = O1 c) (h2 : ∀ c, (dats m 0 c).arrAt 3 cfg0.N = O2 c) :
    θ_run defs (onTc (τ := τ) (main (F := F))) ⟨m, fun _ => 0, ρ⟩ (fun r => ∀ c : Dev nD,
        r.2.mem ((c.tc : Thread nD τ).loc main_v14) = tailK (O1 c) (O2 c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans
        (tail_v14 m c (O1 c) (O2 c) (h1 c) (h2 c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

section Ideal

open Idealize.ShloMosaic.ValueIdx

/-- At the extended reals: if the [4, 8192, 1] array holds `R b n` at (b, n, 0), its reshape to [4, 8192], clamped at
    zero and rooted, holds √(max (R b n) 0) at (b, n). The reshape keeps row-major positions, and
    (b · 8192 + n) · 1 + 0 = b · 8192 + n; the zero array is the real number 0 everywhere. -/
theorem near_of_out1 (X1 : S4x8192x1.Idx → EReal) (R : Fin 4 → Fin 8192 → EReal)
    (h : ∀ (b : Fin 4) (n : Fin 8192), X1 (ix3 b n (0 : Fin 1)) = R b n) :
    Host.sqrt (F := Ideal) (maximumf (shapeCast S4x8192 X1 shapeCasts_S4x8192x1_S4x8192)
        (broadcastInDim S4x8192 ![] bcast_S_S4x8192 (constant (F := Ideal) S_ .f32 0x00000000#32)))
      = fun j => Cert.Chamfer.root (R (j 0) (j 1)) := by
  funext j
  obtain ⟨b, n, rfl⟩ : ∃ b n, j = ix2 b n := ⟨j 0, j 1, eq_ix2 j⟩
  show Ideal.sqrt (max (shapeCast S4x8192 X1 shapeCasts_S4x8192x1_S4x8192 (ix2 b n))
    (broadcastInDim S4x8192 ![] bcast_S_S4x8192 (constant (F := Ideal) S_ .f32 0x00000000#32) (ix2 b n))) = _
  rw [shapeCast_apply X1 shapeCasts_S4x8192x1_S4x8192 (ix2 b n) (ix3 b n (0 : Fin 1)) (by
      rw [Shape.rowMajor_val_three, Shape.rowMajor_val_two]
      show (b.val * 8192 + n.val) * 1 + 0 = b.val * 8192 + n.val
      omega),
    show broadcastInDim S4x8192 ![] bcast_S_S4x8192 (constant (F := Ideal) S_ .f32 0x00000000#32) (ix2 b n)
      = Ideal.ofBits .f32 0x00000000#32 from rfl, Ideal.ofBits_zero_f32, h]
  rfl

/-- The same for the [4, 1, 8192] array: if it holds `R b k` at (b, 0, k), its reshape to [4, 8192], clamped at zero
    and rooted, holds √(max (R b k) 0) at (b, k); here (b · 1 + 0) · 8192 + k = b · 8192 + k. -/
theorem near_of_out2 (X2 : S4x1x8192.Idx → EReal) (R : Fin 4 → Fin 8192 → EReal)
    (h : ∀ (b : Fin 4) (k : Fin 8192), X2 (ix3 b (0 : Fin 1) k) = R b k) :
    Host.sqrt (F := Ideal) (maximumf (shapeCast S4x8192 X2 shapeCasts_S4x1x8192_S4x8192)
        (broadcastInDim S4x8192 ![] bcast_S_S4x8192 (constant (F := Ideal) S_ .f32 0x00000000#32)))
      = fun j => Cert.Chamfer.root (R (j 0) (j 1)) := by
  funext j
  obtain ⟨b, k, rfl⟩ : ∃ b k, j = ix2 b k := ⟨j 0, j 1, eq_ix2 j⟩
  show Ideal.sqrt (max (shapeCast S4x8192 X2 shapeCasts_S4x1x8192_S4x8192 (ix2 b k))
    (broadcastInDim S4x8192 ![] bcast_S_S4x8192 (constant (F := Ideal) S_ .f32 0x00000000#32) (ix2 b k))) = _
  rw [shapeCast_apply X2 shapeCasts_S4x1x8192_S4x8192 (ix2 b k) (ix3 b (0 : Fin 1) k) (by
      rw [Shape.rowMajor_val_three, Shape.rowMajor_val_two]
      show (b.val * 1 + 0) * 8192 + k.val = b.val * 8192 + k.val
      omega),
    show broadcastInDim S4x8192 ![] bcast_S_S4x8192 (constant (F := Ideal) S_ .f32 0x00000000#32) (ix2 b k)
      = Ideal.ofBits .f32 0x00000000#32 from rfl, Ideal.ofBits_zero_f32, h]
  rfl

end Ideal

end Cert.KernelIdeal.Tail
-- ==== Proof.Finite.lean ====
/-
  Finiteness read back from the precondition.

  The precondition is the conjunction of two statements of one form: over a whole array of shape
  4 × 8192 × 3, every entry x satisfies |x| < +∞, the conjunction over the entries being a reduction
  by `and` from the value 1 into a single word. At the extended reals |x| is max x (−x) and the
  bit pattern 0x7F800000 of the 32-bit format denotes ⊤, so the element statement is
  max x (−x) < ⊤. That excludes x = ⊤ (then max x (−x) = ⊤) and x = ⊥ (then −x = ⊤), and what is
  left of the extended reals are the reals: every entry of either array is a real number.
-/
import proofs.«121680_j40939628265652_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Chamfer.Finite

open Idealize.ShloMosaic Idealize.ShloMosaic.ValueIdx

/-- A shape with no axes has exactly one index. -/
instance subsingleton_scalarIdx : Subsingleton Cert.Pre_finite_inputs.S_.Idx :=
  ⟨fun a b => funext fun d => d.elim0⟩

/-- An extended real whose absolute value max x (−x) lies strictly below ⊤ is a real number:
at ⊤ the maximum is ⊤ itself, at ⊥ it is −⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the ordered comparison |x| < (the value of the pattern 0x7F800000) answers 1,
then x is a real number. The pattern has an all-ones exponent, a zero significand and a clear sign,
so it denotes ⊤; the comparison answers 1 exactly when the strict inequality holds. -/
theorem real_of_elem (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.absf_def, Ideal.cmpf_def, Ideal.ofBits_def, htop] at h
  refine real_of_abs_lt_top x ?_
  by_contra hn
  simp [Ideal.cmp, hn] at h

/-- The precondition, read back: if the finiteness predicate of the two arrays is 1, every entry of
each array is a real number. The predicate's one word is the `and` of two words, so both are 1;
each of them is a reduction by `and` over all three axes, so every word that entered it is 1; and
the word at index i is the comparison |x i| < +∞ of the entry there. -/
theorem real_of_pre [Cert.Pre_finite_inputs.Facts]
    (x0 x1 : FVec Ideal Cert.Pre_finite_inputs.S4x8192x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨fun i => real_of_elem (x0 i) (Host.reduce_andi_all _ _ _ _ ix0 ha i),
    fun i => real_of_elem (x1 i) (Host.reduce_andi_all _ _ _ _ ix0 hb i)⟩

end Cert.Chamfer.Finite
-- ==== Proof.Assemble.lean ====
/-
  The two programs compute one number.

  Both end the same way: from two [4, 8192] arrays of nearest-neighbour distances — the predicted points' distances to
  their nearest ground-truth point and the ground-truth points' distances to their nearest predicted point — each
  program adds up all 4 · 8192 entries of each array starting from zero, divides each sum by 32768 = 4 · 8192 and
  adds the two means. They differ in how the two arrays arise. The reference takes, for every pair of points, the
  root of the clamped squared distance and then the minimum over one of the two point axes; for real inputs that
  array is `nearP`, respectively `nearG`: the root of the least squared distance. The kernel region leaves the
  least squared distances themselves (`rowMin`, `colMin`, with a unit axis), and the operations after it clamp and
  root them, which is `nearP` and `nearG` again entry by entry. `result_eq` is that equation of the two results.

  The precondition makes every input entry a real number, which is what the reference's side needs. The claims are then
  put together: each program's run with its arguments unchanged, and, from memories that agree on the arguments, the
  two runs ending with the same result. What the region's two output buffers hold at the points where they are written
  back is taken as two hypotheses (`hout1`, `hout2`): the least squared distances of the block's batch and points.
-/
import proofs.«121680_j40939628265652_2_alg».proof.Defs
import proofs.«121680_j40939628265652_2_alg».proof.Proof.Gen.Kernel.Frame
import proofs.«121680_j40939628265652_2_alg».proof.Proof.Gen.KernelIdeal.Frame
import proofs.«121680_j40939628265652_2_alg».proof.Proof.Gen.ReferenceIdeal.Run
import proofs.«121680_j40939628265652_2_alg».proof.Proof.Gen.ReferenceIdeal.Read
import proofs.«121680_j40939628265652_2_alg».proof.Proof.Gen.Pre_finite_inputs
import proofs.«121680_j40939628265652_2_alg».proof.Proof.Spec
import proofs.«121680_j40939628265652_2_alg».proof.Proof.RefNear
import proofs.«121680_j40939628265652_2_alg».proof.Proof.Arrays
import proofs.«121680_j40939628265652_2_alg».proof.Proof.TailRun
import proofs.«121680_j40939628265652_2_alg».proof.Proof.Finite

noncomputable section

namespace Cert.Proof.Assemble

open Idealize.ShloMosaic Idealize.ShloMosaic.TcCoe Idealize.SL.Sem Idealize.ShloMosaic.ValueIdx

/-- For real inputs the reference's result is the kernel's tail applied to the arrays of least squared distances.
    The reference's two [4, 8192] arrays are `nearP P G` and `nearG P G`; the clamp-and-root of the kernel's two
    reshaped outputs are the same two arrays, entry (b, n) being the root of `rowMin P G b n`, respectively of
    `colMin P G b n`; after that both programs apply the same sum, division and addition. -/
theorem result_eq (P G : Cert.Chamfer.Pts.Idx → EReal)
    (hP : ∀ i, ∃ r : ℝ, P i = (r : EReal)) (hG : ∀ i, ∃ r : ℝ, G i = (r : EReal)) :
    Cert.ReferenceIdeal.Read.val_main_v22 (F := Ideal) P G
      = Cert.KernelIdeal.Tail.tailK (F := Ideal) (Cert.KernelIdeal.Arrays.G2 (Cert.Chamfer.rowMin P G))
          (Cert.KernelIdeal.Arrays.G3 (Cert.Chamfer.colMin P G)) := by
  unfold Cert.ReferenceIdeal.Read.val_main_v22 Cert.ReferenceIdeal.Read.val_main_v19 Cert.ReferenceIdeal.Read.val_main_v21
    Cert.ReferenceIdeal.Read.val_main_v18 Cert.ReferenceIdeal.Read.val_main_v20
  rw [Cert.Chamfer.Ref.v16_eq P G hP hG, Cert.Chamfer.Ref.v17_eq P G hP hG]
  unfold Cert.KernelIdeal.Tail.tailK
  rw [Cert.KernelIdeal.Tail.near_of_out1 _ (Cert.Chamfer.rowMin P G) (fun b n => rfl),
    Cert.KernelIdeal.Tail.near_of_out2 _ (Cert.Chamfer.colMin P G) (fun b k => rfl)]
  rfl

/-- The kernel as printed runs and leaves its arguments unchanged. -/
theorem frame_k : Cert.frame_Kernel := fun m ρ _ => Cert.Kernel.Gen.frame m ρ

/-- The kernel at the extended reals runs and leaves its arguments unchanged. -/
theorem frame_ki : Cert.frame_KernelIdeal := fun m ρ _ => Cert.KernelIdeal.Gen.frame m ρ

/-- The reference at the extended reals runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- Given what the region's output buffers hold where they are written back — at a point t with t mod 4 = 3 the first
    holds, at row r, the least squared distance from predicted point 1024 (⌊t/4⌋ mod 8) + r of batch ⌊t/32⌋ to the
    ground-truth points; at a point t with t mod 32 = 31 the second holds, at column k, the least squared distance
    from ground-truth point k of batch ⌊t/32⌋ to the predicted points — both programs, from memories that agree on
    the arguments and satisfy the precondition, run, leave their arguments unchanged and end with the same result:
    the tail applied to the two arrays of least squared distances of the argument arrays. -/
theorem algebraic_of
    (hout1 : ∀ (m : (ℓ : Loc Cert.KernelIdeal.nD Cert.KernelIdeal.τ Cert.KernelIdeal.sig) → Buf (Elt Ideal) ℓ)
        (c : Dev Cert.KernelIdeal.nD) (t : Fin Cert.KernelIdeal.cfg0.N), t.val % 4 = 3 →
        ∀ (r : Fin 1024) (hb : t.val / 32 < 4) (hn : 1024 * (t.val / 4 % 8) + r.val < 8192),
          (Cert.KernelIdeal.Gen.outsAt0 m c t.val t.isLt).1 (ix3 (0 : Fin 1) r (0 : Fin 1))
            = Cert.Chamfer.rowMin
                (fun i => m ((c : Thread Cert.KernelIdeal.nD Cert.KernelIdeal.τ).loc Cert.KernelIdeal.main_arg0) i)
                (fun i => m ((c : Thread Cert.KernelIdeal.nD Cert.KernelIdeal.τ).loc Cert.KernelIdeal.main_arg1) i)
                ⟨t.val / 32, hb⟩ ⟨1024 * (t.val / 4 % 8) + r.val, hn⟩)
    (hout2 : ∀ (m : (ℓ : Loc Cert.KernelIdeal.nD Cert.KernelIdeal.τ Cert.KernelIdeal.sig) → Buf (Elt Ideal) ℓ)
        (c : Dev Cert.KernelIdeal.nD) (t : Fin Cert.KernelIdeal.cfg0.N), t.val % 32 = 31 →
        ∀ (k : Fin 8192) (hb : t.val / 32 < 4),
          (Cert.KernelIdeal.Gen.outsAt0 m c t.val t.isLt).2.1 (ix3 (0 : Fin 1) (0 : Fin 1) k)
            = Cert.Chamfer.colMin
                (fun i => m ((c : Thread Cert.KernelIdeal.nD Cert.KernelIdeal.τ).loc Cert.KernelIdeal.main_arg0) i)
                (fun i => m ((c : Thread Cert.KernelIdeal.nD Cert.KernelIdeal.τ).loc Cert.KernelIdeal.main_arg1) i)
                ⟨t.val / 32, hb⟩ k) :
    Cert.algebraic_KernelIdeal_ReferenceIdeal := by
  intro m ρ m' ρ' hpre hagree
  refine ⟨fun c => Cert.KernelIdeal.Tail.tailK (F := Ideal)
      (Cert.KernelIdeal.Arrays.G2 (Cert.Chamfer.rowMin
        (m ((c : Thread Cert.KernelIdeal.nD Cert.KernelIdeal.τ).loc Cert.KernelIdeal.main_arg0))
        (m ((c : Thread Cert.KernelIdeal.nD Cert.KernelIdeal.τ).loc Cert.KernelIdeal.main_arg1))))
      (Cert.KernelIdeal.Arrays.G3 (Cert.Chamfer.colMin
        (m ((c : Thread Cert.KernelIdeal.nD Cert.KernelIdeal.τ).loc Cert.KernelIdeal.main_arg0))
        (m ((c : Thread Cert.KernelIdeal.nD Cert.KernelIdeal.τ).loc Cert.KernelIdeal.main_arg1)))), ?_, ?_⟩
  · exact Cert.KernelIdeal.Tail.run_tail m ρ _ _
      (fun c => Cert.KernelIdeal.Arrays.final2 m c _ (hout1 m c))
      (fun c => Cert.KernelIdeal.Arrays.final3 m c _ (hout2 m c))
  · refine (θ_run Cert.ReferenceIdeal.defs _ _).mono (fun _ h c => ⟨(h c).1.trans ?_, (h c).2⟩)
      (Cert.ReferenceIdeal.Value.run (F := Ideal) m' ρ')
    obtain ⟨hP, hG⟩ := Cert.Chamfer.Finite.real_of_pre _ _ (hpre c)
    rw [(hagree c).1, (hagree c).2]
    exact (Cert.ReferenceIdeal.Read.val_main_v22_eq _ _).trans (result_eq _ _ hP hG)

end Cert.Proof.Assemble

end
-- ==== Proof.lean ====
/-
  A fused Chamfer-distance kernel against its jnp reference: equal results at the extended reals, for finite inputs.

  Both programs take two [4, 8192, 3] arrays — in each of 4 batches, 8192 predicted points P and 8192 ground-truth points
  G of ℝ³ — and return ONE number: the mean, over all predicted points, of the distance to the nearest ground-truth
  point of the same batch, plus the mean, over all ground-truth points, of the distance to the nearest predicted point.

  The kernel never forms a batch's 8192 × 8192 table of squared distances. On the grid (batch, block of 1024 predicted
  points, block of 2048 ground-truth points) it forms one 1024 × 2048 tile of Σ_d (P[n,d] − G[m,d])² per point, and keeps
  two running minima across points: the tile rows' minima over the ground-truth blocks of a sweep, and, in a row of 8192
  carried through a whole batch, the columns' minima over all the predicted points. Outside the kernel the two arrays
  of least squared distances are clamped at zero, rooted, averaged and added. The reference expands every squared
  distance as |p|² + |g|² − 2 p·g, clamps and roots every entry of the table, and only then takes the row and column
  minima, the means and the sum.

  Why the results agree. For real coordinates the expansion IS the sum of squared coordinate differences (the binomial
  identity; at an infinite coordinate it is not, which is where the precondition "every input is finite" is used).
  The map x ↦ √(max x 0) is monotone and fixes +∞, so it commutes with the minimum of a finite family: the root of the
  least squared distance is the least distance. A minimum accumulated tile by tile from +∞, in any grouping, is the
  minimum over all 8192 candidates. The two tails (sum over both axes from zero, divide by 32768, add) are the same
  operations of the same two arrays.

  The modules: Spec (the mathematics), Glb (a running minimum carried by its universal property), MinLaw (the order
  and ring facts), Pieces and Tile (what the kernel body leaves in its buffers, and its arithmetic entry by entry),
  Blocks (the windows' blocks in terms of the arguments), Invariant (what the buffers hold after every grid point, by
  induction), Arrays (the write-backs cover the two output arrays), TailRun (the operations after the kernel), RefNear
  (the reference's two minima are the nearest-neighbour distances), Finite (finite inputs are real), Assemble (the
  frames, the idealization's faithfulness — nothing was rewritten — and the equality of the two results).
-/
import proofs.«121680_j40939628265652_2_alg».proof.Defs
import proofs.«121680_j40939628265652_2_alg».proof.Proof.Gen.Kernel
import proofs.«121680_j40939628265652_2_alg».proof.Proof.Gen.Kernel.Skeleton
import proofs.«121680_j40939628265652_2_alg».proof.Proof.Gen.Kernel.Launch
import proofs.«121680_j40939628265652_2_alg».proof.Proof.Gen.Kernel.Points
import proofs.«121680_j40939628265652_2_alg».proof.Proof.Gen.Kernel.Frame
import proofs.«121680_j40939628265652_2_alg».proof.Proof.Gen.KernelIdeal
import proofs.«121680_j40939628265652_2_alg».proof.Proof.Gen.KernelIdeal.Skeleton
import proofs.«121680_j40939628265652_2_alg».proof.Proof.Gen.KernelIdeal.Launch
import proofs.«121680_j40939628265652_2_alg».proof.Proof.Gen.KernelIdeal.Points
import proofs.«121680_j40939628265652_2_alg».proof.Proof.Gen.KernelIdeal.Frame
import proofs.«121680_j40939628265652_2_alg».proof.Proof.Gen.ReferenceIdeal
import proofs.«121680_j40939628265652_2_alg».proof.Proof.Gen.Pre_finite_inputs
import proofs.«121680_j40939628265652_2_alg».proof.Proof.Gen.ReferenceIdeal.Run
import proofs.«121680_j40939628265652_2_alg».proof.Proof.Gen.ReferenceIdeal.Read
import proofs.«121680_j40939628265652_2_alg».proof.Proof.Invariant
import proofs.«121680_j40939628265652_2_alg».proof.Proof.Assemble
import Idealize.ShloMosaic.Adequacy
import Idealize.ShloMosaic.Init

noncomputable section

namespace Cert.Proof

open Idealize.ShloMosaic Idealize.SL.Sem Cert.Kernel

/-- The two programs, run from memories that agree on the (finite) arguments, end with equal results: the kernel's
    output arrays hold the row and column minima of the squared distances at its write-back points (the induction over
    the grid), and from there both results are the same means of the same nearest-neighbour distances. -/
theorem algebraic : Cert.algebraic_KernelIdeal_ReferenceIdeal :=
  Assemble.algebraic_of
    (fun m c t h3 r hb hn => Cert.KernelIdeal.Inv.out1_at m c t h3 r hb hn)
    (fun m c t h31 k hb => Cert.KernelIdeal.Inv.out2_at m c t h31 k hb)

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves, algebraic⟩

end Cert.Proof

end
